-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S8x4x8192 : Shape := ⟨3, ![8, 4, 8192]⟩
abbrev S4x3x1024 : Shape := ⟨3, ![4, 3, 1024]⟩
abbrev S4x3x512 : Shape := ⟨3, ![4, 3, 512]⟩
abbrev S4x1024 : Shape := ⟨2, ![4, 1024]⟩
abbrev S1x4x512 : Shape := ⟨3, ![1, 4, 512]⟩
abbrev S4x512 : Shape := ⟨2, ![4, 512]⟩
abbrev S4x1024x1 : Shape := ⟨3, ![4, 1024, 1]⟩
abbrev S4x1x512 : Shape := ⟨3, ![4, 1, 512]⟩
abbrev S4x1024x512 : Shape := ⟨3, ![4, 1024, 512]⟩
abbrev S4x1x1024 : Shape := ⟨3, ![4, 1, 1024]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S8x4x8192, .f32⟩
  | .hbm, ⟨4, _⟩ => ⟨S_, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S4x3x1024, .f32⟩
  | .local _ .vmem, ⟨1, _⟩ => ⟨S4x3x1024, .f32⟩
  | .local _ .vmem, ⟨2, _⟩ => ⟨S4x3x512, .f32⟩
  | .local _ .vmem, ⟨3, _⟩ => ⟨S4x3x512, .f32⟩
  | .local _ .vmem, ⟨4, _⟩ => ⟨S4x1024, .f32⟩
  | .local _ .vmem, ⟨5, _⟩ => ⟨S4x1024, .f32⟩
  | .local _ .vmem, ⟨6, _⟩ => ⟨S1x4x512, .f32⟩
  | .local _ .vmem, ⟨7, _⟩ => ⟨S1x4x512, .f32⟩
  | .local _ .vmem, ⟨8, _⟩ => ⟨S4x1024, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_12 : BitVec 32 := 0#32
  let v53 : BitVec 1 := Scalar.cmpi .ne v52 c0_i32_12
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4x3x1024_S4x3x1024_0_0_0 : ∀ a, (![0, 0, 0] : Fin 3 → Nat) a + S4x3x1024.size a ≤ S4x3x1024.size a
  h_S4x3x1024 : 0 < S4x3x1024.numel
  inb_S4x3x512_S4x3x512_0_0_0 : ∀ a, (![0, 0, 0] : Fin 3 → Nat) a + S4x3x512.size a ≤ S4x3x512.size a
  h_S4x3x512 : 0 < S4x3x512.numel
  reduces_S4x3x1024_S4x1024 : S4x3x1024.Reduces [1] S4x1024
  reduces_S4x3x512_S4x512 : S4x3x512.Reduces [1] S4x512
  shapeCasts_S4x1024_S4x1024x1 : S4x1024.ShapeCasts S4x1024x1
  shapeCasts_S4x512_S4x1x512 : S4x512.ShapeCasts S4x1x512
  broadcasts_S4x1024x1_S4x1024x512 : S4x1024x1.Broadcasts S4x1024x512
  broadcasts_S4x1x512_S4x1024x512 : S4x1x512.Broadcasts S4x1024x512
  slices_S4x3x1024_o0_0_0_S4x1x1024 : S4x3x1024.Slices ![0, 0, 0] S4x1x1024
  shapeCasts_S4x1x1024_S4x1024 : S4x1x1024.ShapeCasts S4x1024
  slices_S4x3x512_o0_0_0_S4x1x512 : S4x3x512.Slices ![0, 0, 0] S4x1x512
  shapeCasts_S4x1x512_S4x512 : S4x1x512.ShapeCasts S4x512
  slices_S4x3x1024_o0_1_0_S4x1x1024 : S4x3x1024.Slices ![0, 1, 0] S4x1x1024
  slices_S4x3x512_o0_1_0_S4x1x512 : S4x3x512.Slices ![0, 1, 0] S4x1x512
  slices_S4x3x1024_o0_2_0_S4x1x1024 : S4x3x1024.Slices ![0, 2, 0] S4x1x1024
  slices_S4x3x512_o0_2_0_S4x1x512 : S4x3x512.Slices ![0, 2, 0] S4x1x512
  reduces_S4x1024x512_S4x1024 : S4x1024x512.Reduces [2] S4x1024
  reduces_S4x1024x512_S4x512 : S4x1024x512.Reduces [1] S4x512
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  shapeCasts_S4x512_S1x4x512 : S4x512.ShapeCasts S1x4x512
  reducesTo_S8x4x8192_S4x8192_d0 : S8x4x8192.ReducesTo [0] S4x8192
  h_S_ : 0 < S_.numel
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x1024.size a ≤ S4x3x8192.size a
  hwx0_0 : ∀ i : grid0.Coords, EltTy.bits .f32 = 32 ∨ (Rect.block (s := S4x3x8192) S4x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x512.size a ≤ S8x4x8192.size a
  hwx0_3 : ∀ i : grid0.Coords, EltTy.bits .f32 = 32 ∨ (Rect.block (s := S8x4x8192) S1x4x512.size (cc0_transform_3 i) (hinb0_3 i)).WholeWords (EltTy.packing .f32)

variable [Facts₀]

abbrev win0_0 : Pipeline.Window sig grid0 :=
  Pipeline.Window.ofSpec (Memref.whole main_arg0) S4x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB.Cases.lean ====
/-
  The grid of the fused minimum-distance kernel has 8 × 16 points, point t = 16·i + j: i selects a tile of 1024
  points of the first cloud, j a tile of 512 points of the second. The body branches three times on j alone:
  "j = 0" (start the running minimum), "j ≠ 0" (fold this tile into it), "j = 15" (hand the running minimum to
  the first output). This module decides the three conditions over the grid, says where the first output's window
  is idle (everywhere but at j = 15, which are also the only points that write it back), names the staging
  memrefs the body is called with, and restates the region invariant with the scratch accumulator as a memref.
-/
import proofs.«158403_j85237920956691_2_alg».proof.Proof.Gen.Kernel.Frame
import proofs.«158403_j85237920956691_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, decided over the grid -/

/-- "j = 0", as the body computes it from the grid coordinates. -/
abbrev cond1 (i : grid0.Coords) : Prop :=
  (Scalar.cmpi .ne (Scalar.extui (Scalar.cmpi .eq (BitVec.ofNat 32 (i 1).val) 0#32)) 0#32) = 1#1
/-- "j ≠ 0". -/
abbrev cond2 (i : grid0.Coords) : Prop :=
  (Scalar.cmpi .ne (Scalar.extui (Scalar.cmpi .ne (BitVec.ofNat 32 (i 1).val) 0#32)) 0#32) = 1#1
/-- "j = 15": the last tile of the second cloud. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Away from j = 15 the first output's window is idle … -/
theorem idle2 : ∀ t : Fin cfg0.N, ¬ t.val % 16 = 15 → cfg0.idle 2 (grid0.coords t) = true := by decide +kernel
/-- … and is not written back. -/
theorem noFlush2 : ∀ t : Fin cfg0.N, ¬ t.val % 16 = 15 → (cfg0.win 2).flush t = false := by decide +kernel
/-- At j = 15 it is live. -/
theorem live2 : ∀ t : Fin cfg0.N, t.val % 16 = 15 → cfg0.idle 2 (grid0.coords t) = false := by decide +kernel

/-! ## The memrefs the body is called with -/

abbrev ms0 (t : Fin cfg0.N) : Memref sig .tc .vmem S4x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4x512 .f32 := win0_3.stage (cfg0.slots t 3)
abbrev hs3 (t : Fin cfg0.N) : (ms3 t).IsWhole := hstage0_3 ((cfg0.slots t 3).cast nbuf0_3)
/-- The scratch accumulator: a whole scoped buffer of the kernel's own. -/
abbrev scM : Memref sig .tc .vmem S4x1024 .f32 := Memref.whole cc0_scratch0

/-- The region invariant the launch hands the body, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KB.RunA.lean ====
/-
  The body at a point with j = 0. It loads the two input blocks, builds the tile of squared distances, stores the
  tile's row minima into the scratch accumulator (whose old contents it loads and drops), leaves the first output's
  buffer as it found it, and stores the tile's column minima into the second output's buffer. Every store is of a
  whole buffer, so what a buffer holds afterwards is the stored value itself.
-/
import proofs.«158403_j85237920956691_2_alg».proof.Proof.KB.Cases
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-2 whole-buffer access. -/
theorem hz2 : (![0, 0] : Fin 2 → Nat) = fun _ => 0 := by funext a; fin_cases a <;> rfl
/-- The all-zero offsets of a rank-3 whole-buffer access. -/
theorem hz3 : (![0, 0, 0] : Fin 3 → Nat) = fun _ => 0 := by funext a; fin_cases a <;> rfl

set_option maxHeartbeats 1000000 in
/-- The body's triple at j = 0: the inputs and the first output's buffer are handed back untouched, the second
    output's buffer holds the column minima of the tile, the scratch its row minima. -/
theorem runA (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : cond1 i) (hc2 : ¬cond2 i) (hc3 : ¬cond3 i)
    (x0 : Vec F S4x3x1024 .f32) (x1 : Vec F S4x3x512 .f32) (xi2 : Vec F S4x1024 .f32) (E : Set ℕ) (K : PUnit → sProp 𝕄) :
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare (k0_pay3 (k0_pay6 x0 x1))
                ∗ owns (c : Thread nD τ) arg6 fullShare (k0_pay1 (k0_pay5 x0 x1))) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.Kernel.Hand

end
-- ==== Proof.KB.RunB.lean ====
/-
  The body at a point with 0 < j < 15: the tile's row minima are folded into the running minimum kept in the
  scratch buffer; the first output's buffer is not touched.
-/
import proofs.«158403_j85237920956691_2_alg».proof.Proof.KB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at 0 < j < 15: the scratch, found at `xs`, is left at the entrywise minimum of `xs` and the
    tile's row minima; the first output's buffer is handed back untouched; the second output's buffer holds the
    tile's column minima. -/
theorem runB (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : ¬cond1 i) (hc2 : cond2 i) (hc3 : ¬cond3 i)
    (x0 : Vec F S4x3x1024 .f32) (x1 : Vec F S4x3x512 .f32) (xi2 : Vec F S4x1024 .f32) (xs : Vec F S4x1024 .f32) (E : Set ℕ) (K : PUnit → sProp 𝕄) :
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ owns (c : Thread nD τ) arg5 fullShare (k0_pay3 (k0_pay6 x0 x1))
                ∗ owns (c : Thread nD τ) arg6 fullShare (k0_pay2 (k0_pay5 x0 x1) xs)) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.Kernel.Hand

end
-- ==== Proof.KB.RunC.lean ====
/-
  The body at a point with j = 15, the last tile of the second cloud: the tile's row minima are folded into the
  running minimum, and the result — now the minimum over the whole second cloud — is copied into the first
  output's buffer, which the pipeline writes back after this point.
-/
import proofs.«158403_j85237920956691_2_alg».proof.Proof.KB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at j = 15: as at the other j ≠ 0, and then the scratch's new contents are copied into the
    first output's buffer (whose old contents are loaded and dropped). -/
theorem runC (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : ¬cond1 i) (hc2 : cond2 i) (hc3 : cond3 i)
    (x0 : Vec F S4x3x1024 .f32) (x1 : Vec F S4x3x512 .f32) (xs : Vec F S4x1024 .f32) (E : Set ℕ) (K : PUnit → sProp 𝕄) :
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare (k0_pay2 (k0_pay5 x0 x1) xs)
                ∗ owns (c : Thread nD τ) arg5 fullShare (k0_pay3 (k0_pay6 x0 x1))
                ∗ owns (c : Thread nD τ) arg6 fullShare (k0_pay2 (k0_pay5 x0 x1) xs)) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.Kernel.Hand

end
-- ==== Proof.KB.AccDef.lean ====
/-
  The running minimum the kernel keeps in its scratch buffer, as a pure recursion over the grid points in the
  order the grid visits them (point n = 16·i + j). At j = 0 it is the row minima of the point's tile of squared
  distances; at any other j it is the entrywise minimum of what the point before left and the row minima of this
  point's tile. `X n` and `Y n` stand for the two input blocks the body finds at point n.
-/
import proofs.«158403_j85237920956691_2_alg».proof.Proof.Gen.Kernel.Skeleton

noncomputable section

namespace Cert.Kernel.Hand

open Idealize.ShloMosaic Cert.Kernel Cert.Kernel.Gen

variable {F : FTy → Type} [FloatOps F]

/-- The scratch accumulator after the body at point `n`. -/
def accOf (X : ℕ → Vec F S4x3x1024 .f32) (Y : ℕ → Vec F S4x3x512 .f32) : ℕ → Vec F S4x1024 .f32
  | 0 => k0_pay1 (k0_pay5 (X 0) (Y 0))
  | n + 1 =>
    if (n + 1) % 16 = 0 then k0_pay1 (k0_pay5 (X (n + 1)) (Y (n + 1)))
    else k0_pay2 (k0_pay5 (X (n + 1)) (Y (n + 1))) (accOf X Y n)

theorem accOf_zero (X : ℕ → Vec F S4x3x1024 .f32) (Y : ℕ → Vec F S4x3x512 .f32) :
    accOf X Y 0 = k0_pay1 (k0_pay5 (X 0) (Y 0)) := rfl

/-- At the first tile of the second cloud the accumulator starts afresh. -/
theorem accOf_start (X : ℕ → Vec F S4x3x1024 .f32) (Y : ℕ → Vec F S4x3x512 .f32) (n : ℕ) (h : n % 16 = 0) :
    accOf X Y n = k0_pay1 (k0_pay5 (X n) (Y n)) := by
  cases n with
  | zero => rfl
  | succ n => exact if_pos h

/-- At every other tile it folds the tile's row minima into what the point before left. -/
theorem accOf_step (X : ℕ → Vec F S4x3x1024 .f32) (Y : ℕ → Vec F S4x3x512 .f32) (n : ℕ) (h : ¬ n % 16 = 0) :
    accOf X Y n = k0_pay2 (k0_pay5 (X n) (Y n)) (accOf X Y (n - 1)) := by
  cases n with
  | zero => exact absurd (Nat.zero_mod _) h
  | succ n => exact if_neg h

end Cert.Kernel.Hand

end
-- ==== Proof.KB.Data.lean ====
/-
  The proof data of the fused minimum-distance kernel's pipeline and its frame.

  After the body at point t = 16·i + j the four staging buffers hold: the two input blocks, untouched; the
  running row minimum `acc t` (what the scratch holds: started at j = 0, folded with the tile's row minima at every
  other j), which the body copies into the first output's buffer at j = 15, the only points that write that buffer
  back; and the column minima of the point's tile, in the second output's buffer. Between points the region
  invariant keeps the scratch at `acc` of the point before. With the three cases of the body's triple this gives the
  body obligation at every point, hence the run of the whole program and its frame.
-/
import proofs.«158403_j85237920956691_2_alg».proof.Proof.KB.RunC
import proofs.«158403_j85237920956691_2_alg».proof.Proof.KB.AccDef

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by rw [show cfg0.N = 128 from N_0]; decide

/-- The first cloud's block the body finds at point `n` (points taken modulo the grid, so that it is total). -/
def Xb (c : Dev nD) (n : ℕ) : Vec F S4x3x1024 .f32 := iblk m c 0 ⟨n % cfg0.N, Nat.mod_lt _ N_pos⟩
/-- The second cloud's block the body finds at point `n`. -/
def Yb (c : Dev nD) (n : ℕ) : Vec F S4x3x512 .f32 := iblk m c 1 ⟨n % cfg0.N, Nat.mod_lt _ N_pos⟩

theorem Xb_eq (c : Dev nD) (t : Fin cfg0.N) : Xb m c t.val = iblk m c 0 t := by
  have e : (⟨t.val % cfg0.N, Nat.mod_lt _ N_pos⟩ : Fin cfg0.N) = t := Fin.ext (Nat.mod_eq_of_lt t.isLt)
  unfold Xb; rw [e]
theorem Yb_eq (c : Dev nD) (t : Fin cfg0.N) : Yb m c t.val = iblk m c 1 t := by
  have e : (⟨t.val % cfg0.N, Nat.mod_lt _ N_pos⟩ : Fin cfg0.N) = t := Fin.ext (Nat.mod_eq_of_lt t.isLt)
  unfold Yb; rw [e]

/-- The running row minimum after point `n`. -/
def acc (c : Dev nD) (n : ℕ) : Vec F S4x1024 .f32 := accOf (Xb m c) (Yb m c) n
/-- The column minima of the tile at point `t`, laid out as the second output's block. -/
def colmin (c : Dev nD) (t : Fin cfg0.N) : Vec F S1x4x512 .f32 := k0_pay3 (k0_pay6 (iblk m c 0 t) (iblk m c 1 t))

theorem acc_start (c : Dev nD) (t : Fin cfg0.N) (h : t.val % 16 = 0) :
    acc m c t.val = k0_pay1 (k0_pay5 (iblk m c 0 t) (iblk m c 1 t)) := by
  unfold acc; rw [accOf_start _ _ _ h, Xb_eq, Yb_eq]
theorem acc_step (c : Dev nD) (t : Fin cfg0.N) (h : ¬ t.val % 16 = 0) :
    acc m c t.val = k0_pay2 (k0_pay5 (iblk m c 0 t) (iblk m c 1 t)) (acc m c (t.val - 1)) := by
  unfold acc; rw [accOf_step _ _ _ h, Xb_eq, Yb_eq]

/-- The region invariant before point `n`: at first the launch's own (the scratch at anything); afterwards the
    scratch at the running minimum the point before left, and the generator register at some state. -/
def PhiS (c : Dev nD) : ℕ → sProp 𝕄
  | 0 => Pipeline.ΦA spec0 c
  | n + 1 => iprop(iprop(owns (c : Thread nD τ) scM fullShare (acc m c n)) ∗ (∃ r, prngReg c r))

theorem PhiS_pos (c : Dev nD) (n : ℕ) (hz : n ≠ 0) :
    PhiS m c n = iprop(iprop(owns (c : Thread nD τ) scM fullShare (acc m c (n - 1))) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val
    | ⟨3, _⟩ => colmin m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = acc m c t.val := by dsimp only [dats]
theorem after_3 (c : Dev nD) (t : Fin cfg0.N) : (dats m 0 c).after 3 t = colmin m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the three conditions put the point in one of the
    three cases; the invariant hands the body the scratch (at anything at the first point, at the running minimum
    of the point before afterwards) and takes it back at this point's running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = iprop(iprop(owns (c : Thread nD τ) scM fullShare (acc m c t.val)) ∗ (∃ r, prngReg c r)) from rfl]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  unfold colmin
  have hN : t.val < 128 := lt_of_lt_of_eq t.isLt (show cfg0.N = 128 from N_0)
  by_cases h0 : t.val % 16 = 0
  · have h15 : ¬ t.val % 16 = 15 := by omega
    rw [Dat.leavesExact_idle (dats m 0 c) 2 t (idle2 t h15) (noFlush2 t h15)]
    rw [acc_start m c t h0]
    by_cases hz : t.val = 0
    · rw [show PhiS m c t.val = Pipeline.ΦA spec0 c from by rw [hz]; rfl, PhiA_eq]
      iintro ⟨⟨HS, Hg⟩, Ho, ⟨%d0, H0⟩, ⟨%d1, H1⟩, ⟨%d2, H2⟩, ⟨%d3, H3⟩⟩
      iapply (runA c (grid0.coords t) _ _ _ _ _ _ _ _ _ _ ((hcond1 t).mpr h0) (fun h => (hcond2 t).mp h h0) (fun h => h15 ((hcond3 t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [PhiS_pos m c _ hz]
      iintro ⟨⟨HS, Hg⟩, Ho, ⟨%d0, H0⟩, ⟨%d1, H1⟩, ⟨%d2, H2⟩, ⟨%d3, H3⟩⟩
      iapply (runA c (grid0.coords t) _ _ _ _ _ _ _ _ _ _ ((hcond1 t).mpr h0) (fun h => (hcond2 t).mp h h0) (fun h => h15 ((hcond3 t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have hz : t.val ≠ 0 := fun e => h0 (by rw [e])
    rw [PhiS_pos m c _ hz, acc_step m c t h0]
    by_cases h15 : t.val % 16 = 15
    · rw [show (dats m 0 c).leavesExact 2 t = owns (c : Thread nD τ) (ms2 t) fullShare ((dats m 0 c).after 2 t) from by
        unfold Dat.leavesExact; rw [live2 t h15], after_2, acc_step m c t h0]
      iintro ⟨⟨HS, Hg⟩, Ho, ⟨%d0, H0⟩, ⟨%d1, H1⟩, ⟨%d2, H2⟩, ⟨%d3, H3⟩⟩
      iapply (runC c (grid0.coords t) _ _ _ _ _ _ _ _ _ _ (fun h => h0 ((hcond1 t).mp h)) ((hcond2 t).mpr h0) ((hcond3 t).mpr h15) (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 2 t (idle2 t h15) (noFlush2 t h15)]
      iintro ⟨⟨HS, Hg⟩, Ho, ⟨%d0, H0⟩, ⟨%d1, H1⟩, ⟨%d2, H2⟩, ⟨%d3, H3⟩⟩
      iapply (runB c (grid0.coords t) _ _ _ _ _ _ _ _ _ _ (fun h => h0 ((hcond1 t).mp h)) ((hcond2 t).mpr h0) (fun h => h15 ((hcond3 t).mp h)) (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the launch's back: the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 128 from N_0]; decide), PhiA_eq]
  iintro ⟨HS, Hg⟩
  isplitl [HS]
  · iexists _; iexact HS
  iexact Hg

/-! ## The run and the frame -/

set_option backward.isDefEq.respectTransparency.types false in
/-- Every weakly fair execution of the program terminates, and in every final state each array of the pipeline
    holds what the write-backs of the proof data leave, every other unscoped buffer what the host operations after
    the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The grid of the fused minimum-distance kernel has 8 × 16 points, point t = 16·i + j: i selects a tile of 1024
  points of the first cloud, j a tile of 512 points of the second. The body branches three times on j alone:
  "j = 0" (start the running minimum), "j ≠ 0" (fold this tile into it), "j = 15" (hand the running minimum to
  the first output). This module decides the three conditions over the grid, says where the first output's window
  is idle (everywhere but at j = 15, which are also the only points that write it back), names the staging
  memrefs the body is called with, and restates the region invariant with the scratch accumulator as a memref.
-/
import proofs.«158403_j85237920956691_2_alg».proof.Proof.Gen.KernelIdeal.Frame
import proofs.«158403_j85237920956691_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, decided over the grid -/

/-- "j = 0", as the body computes it from the grid coordinates. -/
abbrev cond1 (i : grid0.Coords) : Prop :=
  (Scalar.cmpi .ne (Scalar.extui (Scalar.cmpi .eq (BitVec.ofNat 32 (i 1).val) 0#32)) 0#32) = 1#1
/-- "j ≠ 0". -/
abbrev cond2 (i : grid0.Coords) : Prop :=
  (Scalar.cmpi .ne (Scalar.extui (Scalar.cmpi .ne (BitVec.ofNat 32 (i 1).val) 0#32)) 0#32) = 1#1
/-- "j = 15": the last tile of the second cloud. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Away from j = 15 the first output's window is idle … -/
theorem idle2 : ∀ t : Fin cfg0.N, ¬ t.val % 16 = 15 → cfg0.idle 2 (grid0.coords t) = true := by decide +kernel
/-- … and is not written back. -/
theorem noFlush2 : ∀ t : Fin cfg0.N, ¬ t.val % 16 = 15 → (cfg0.win 2).flush t = false := by decide +kernel
/-- At j = 15 it is live. -/
theorem live2 : ∀ t : Fin cfg0.N, t.val % 16 = 15 → cfg0.idle 2 (grid0.coords t) = false := by decide +kernel

/-! ## The memrefs the body is called with -/

abbrev ms0 (t : Fin cfg0.N) : Memref sig .tc .vmem S4x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4x512 .f32 := win0_3.stage (cfg0.slots t 3)
abbrev hs3 (t : Fin cfg0.N) : (ms3 t).IsWhole := hstage0_3 ((cfg0.slots t 3).cast nbuf0_3)
/-- The scratch accumulator: a whole scoped buffer of the kernel's own. -/
abbrev scM : Memref sig .tc .vmem S4x1024 .f32 := Memref.whole cc0_scratch0

/-- The region invariant the launch hands the body, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The body at a point with j = 0. It loads the two input blocks, builds the tile of squared distances, stores the
  tile's row minima into the scratch accumulator (whose old contents it loads and drops), leaves the first output's
  buffer as it found it, and stores the tile's column minima into the second output's buffer. Every store is of a
  whole buffer, so what a buffer holds afterwards is the stored value itself.
-/
import proofs.«158403_j85237920956691_2_alg».proof.Proof.KI.Cases
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-2 whole-buffer access. -/
theorem hz2 : (![0, 0] : Fin 2 → Nat) = fun _ => 0 := by funext a; fin_cases a <;> rfl
/-- The all-zero offsets of a rank-3 whole-buffer access. -/
theorem hz3 : (![0, 0, 0] : Fin 3 → Nat) = fun _ => 0 := by funext a; fin_cases a <;> rfl

set_option maxHeartbeats 1000000 in
/-- The body's triple at j = 0: the inputs and the first output's buffer are handed back untouched, the second
    output's buffer holds the column minima of the tile, the scratch its row minima. -/
theorem runA (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : cond1 i) (hc2 : ¬cond2 i) (hc3 : ¬cond3 i)
    (x0 : Vec F S4x3x1024 .f32) (x1 : Vec F S4x3x512 .f32) (xi2 : Vec F S4x1024 .f32) (E : Set ℕ) (K : PUnit → sProp 𝕄) :
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare (k0_pay3 (k0_pay6 x0 x1))
                ∗ owns (c : Thread nD τ) arg6 fullShare (k0_pay1 (k0_pay5 x0 x1))) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.KernelIdeal.Hand

end
-- ==== Proof.KI.RunB.lean ====
/-
  The body at a point with 0 < j < 15: the tile's row minima are folded into the running minimum kept in the
  scratch buffer; the first output's buffer is not touched.
-/
import proofs.«158403_j85237920956691_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at 0 < j < 15: the scratch, found at `xs`, is left at the entrywise minimum of `xs` and the
    tile's row minima; the first output's buffer is handed back untouched; the second output's buffer holds the
    tile's column minima. -/
theorem runB (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : ¬cond1 i) (hc2 : cond2 i) (hc3 : ¬cond3 i)
    (x0 : Vec F S4x3x1024 .f32) (x1 : Vec F S4x3x512 .f32) (xi2 : Vec F S4x1024 .f32) (xs : Vec F S4x1024 .f32) (E : Set ℕ) (K : PUnit → sProp 𝕄) :
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ owns (c : Thread nD τ) arg5 fullShare (k0_pay3 (k0_pay6 x0 x1))
                ∗ owns (c : Thread nD τ) arg6 fullShare (k0_pay2 (k0_pay5 x0 x1) xs)) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.KernelIdeal.Hand

end
-- ==== Proof.KI.RunC.lean ====
/-
  The body at a point with j = 15, the last tile of the second cloud: the tile's row minima are folded into the
  running minimum, and the result — now the minimum over the whole second cloud — is copied into the first
  output's buffer, which the pipeline writes back after this point.
-/
import proofs.«158403_j85237920956691_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at j = 15: as at the other j ≠ 0, and then the scratch's new contents are copied into the
    first output's buffer (whose old contents are loaded and dropped). -/
theorem runC (c : Dev nD) (i : grid0.Coords) (arg2 : Memref sig .tc .vmem S4x3x1024 .f32) (harg2 : arg2.IsWhole) (arg3 : Memref sig .tc .vmem S4x3x512 .f32) (harg3 : arg3.IsWhole) (arg4 : Memref sig .tc .vmem S4x1024 .f32) (harg4 : arg4.IsWhole) (arg5 : Memref sig .tc .vmem S1x4x512 .f32) (harg5 : arg5.IsWhole) (arg6 : Memref sig .tc .vmem S4x1024 .f32) (harg6 : arg6.IsWhole)
    (hc1 : ¬cond1 i) (hc2 : cond2 i) (hc3 : cond3 i)
    (x0 : Vec F S4x3x1024 .f32) (x1 : Vec F S4x3x512 .f32) (xs : Vec F S4x1024 .f32) (E : Set ℕ) (K : PUnit → sProp 𝕄) :
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare (k0_pay2 (k0_pay5 x0 x1) xs)
                ∗ owns (c : Thread nD τ) arg5 fullShare (k0_pay3 (k0_pay6 x0 x1))
                ∗ owns (c : Thread nD τ) arg6 fullShare (k0_pay2 (k0_pay5 x0 x1) xs)) -∗ K ⟨⟩))
          ⊢ wp frame (wpE (defs₀ (F := F)) Variants.none c none) E (cc0__fused_mindist_kernel i arg2 harg2 arg3 harg3 arg4 harg4 arg5 harg5 arg6 harg6) K := by
    simp only [cc0__fused_mindist_kernel_eq_skeleton]; unfold cc0__fused_mindist_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    isplitl [H3]
    · iexists _; isplitr
      swap; · iexact H3
      ipureintro
      (try sl_unfold_words)
      rw [View.read_writes_eq_canon _ _ _ (fun y => ⟨_, List.mem_singleton_self _, View.mem_set_unit_zero hz3 inb_S1x4x512_S1x4x512_0_0_0 y⟩), View.canon_unit_zero hz3]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]
    · iexists _; isplitr
      swap; · iexact HS
      ipureintro
      (try sl_unfold_words)
      rw [View.read_writes_eq_canon _ _ _ (fun y => ⟨_, List.mem_singleton_self _, View.mem_set_unit_zero hz2 inb_S4x1024_S4x1024_0_0 y⟩), View.canon_unit_zero hz2]
      (try sl_unfold_words)
      simp only [View.readAt_eq_ld, harg2.read_unread, harg3.read_unread, harg6.read_unread, View.ld_unit_zero (S := S4x3x1024) hz3, View.ld_unit_zero (S := S4x3x512) hz3, View.ld_unit_zero (S := S4x1024) hz2, View.readCov_unit_zero (S := S4x1024) _ hz2 inb_S4x1024_S4x1024_0_0]

end Cert.KernelIdeal.Hand

end
-- ==== Proof.KI.AccDef.lean ====
/-
  The running minimum the kernel keeps in its scratch buffer, as a pure recursion over the grid points in the
  order the grid visits them (point n = 16·i + j). At j = 0 it is the row minima of the point's tile of squared
  distances; at any other j it is the entrywise minimum of what the point before left and the row minima of this
  point's tile. `X n` and `Y n` stand for the two input blocks the body finds at point n.
-/
import proofs.«158403_j85237920956691_2_alg».proof.Proof.Gen.KernelIdeal.Skeleton

noncomputable section

namespace Cert.KernelIdeal.Hand

open Idealize.ShloMosaic Cert.KernelIdeal Cert.KernelIdeal.Gen

variable {F : FTy → Type} [FloatOps F]

/-- The scratch accumulator after the body at point `n`. -/
def accOf (X : ℕ → Vec F S4x3x1024 .f32) (Y : ℕ → Vec F S4x3x512 .f32) : ℕ → Vec F S4x1024 .f32
  | 0 => k0_pay1 (k0_pay5 (X 0) (Y 0))
  | n + 1 =>
    if (n + 1) % 16 = 0 then k0_pay1 (k0_pay5 (X (n + 1)) (Y (n + 1)))
    else k0_pay2 (k0_pay5 (X (n + 1)) (Y (n + 1))) (accOf X Y n)

theorem accOf_zero (X : ℕ → Vec F S4x3x1024 .f32) (Y : ℕ → Vec F S4x3x512 .f32) :
    accOf X Y 0 = k0_pay1 (k0_pay5 (X 0) (Y 0)) := rfl

/-- At the first tile of the second cloud the accumulator starts afresh. -/
theorem accOf_start (X : ℕ → Vec F S4x3x1024 .f32) (Y : ℕ → Vec F S4x3x512 .f32) (n : ℕ) (h : n % 16 = 0) :
    accOf X Y n = k0_pay1 (k0_pay5 (X n) (Y n)) := by
  cases n with
  | zero => rfl
  | succ n => exact if_pos h

/-- At every other tile it folds the tile's row minima into what the point before left. -/
theorem accOf_step (X : ℕ → Vec F S4x3x1024 .f32) (Y : ℕ → Vec F S4x3x512 .f32) (n : ℕ) (h : ¬ n % 16 = 0) :
    accOf X Y n = k0_pay2 (k0_pay5 (X n) (Y n)) (accOf X Y (n - 1)) := by
  cases n with
  | zero => exact absurd (Nat.zero_mod _) h
  | succ n => exact if_neg h

end Cert.KernelIdeal.Hand

end
-- ==== Proof.KI.Data.lean ====
/-
  The proof data of the fused minimum-distance kernel's pipeline and its frame.

  After the body at point t = 16·i + j the four staging buffers hold: the two input blocks, untouched; the
  running row minimum `acc t` (what the scratch holds: started at j = 0, folded with the tile's row minima at every
  other j), which the body copies into the first output's buffer at j = 15, the only points that write that buffer
  back; and the column minima of the point's tile, in the second output's buffer. Between points the region
  invariant keeps the scratch at `acc` of the point before. With the three cases of the body's triple this gives the
  body obligation at every point, hence the run of the whole program and its frame.
-/
import proofs.«158403_j85237920956691_2_alg».proof.Proof.KI.RunC
import proofs.«158403_j85237920956691_2_alg».proof.Proof.KI.AccDef

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by rw [show cfg0.N = 128 from N_0]; decide

/-- The first cloud's block the body finds at point `n` (points taken modulo the grid, so that it is total). -/
def Xb (c : Dev nD) (n : ℕ) : Vec F S4x3x1024 .f32 := iblk m c 0 ⟨n % cfg0.N, Nat.mod_lt _ N_pos⟩
/-- The second cloud's block the body finds at point `n`. -/
def Yb (c : Dev nD) (n : ℕ) : Vec F S4x3x512 .f32 := iblk m c 1 ⟨n % cfg0.N, Nat.mod_lt _ N_pos⟩

theorem Xb_eq (c : Dev nD) (t : Fin cfg0.N) : Xb m c t.val = iblk m c 0 t := by
  have e : (⟨t.val % cfg0.N, Nat.mod_lt _ N_pos⟩ : Fin cfg0.N) = t := Fin.ext (Nat.mod_eq_of_lt t.isLt)
  unfold Xb; rw [e]
theorem Yb_eq (c : Dev nD) (t : Fin cfg0.N) : Yb m c t.val = iblk m c 1 t := by
  have e : (⟨t.val % cfg0.N, Nat.mod_lt _ N_pos⟩ : Fin cfg0.N) = t := Fin.ext (Nat.mod_eq_of_lt t.isLt)
  unfold Yb; rw [e]

/-- The running row minimum after point `n`. -/
def acc (c : Dev nD) (n : ℕ) : Vec F S4x1024 .f32 := accOf (Xb m c) (Yb m c) n
/-- The column minima of the tile at point `t`, laid out as the second output's block. -/
def colmin (c : Dev nD) (t : Fin cfg0.N) : Vec F S1x4x512 .f32 := k0_pay3 (k0_pay6 (iblk m c 0 t) (iblk m c 1 t))

theorem acc_start (c : Dev nD) (t : Fin cfg0.N) (h : t.val % 16 = 0) :
    acc m c t.val = k0_pay1 (k0_pay5 (iblk m c 0 t) (iblk m c 1 t)) := by
  unfold acc; rw [accOf_start _ _ _ h, Xb_eq, Yb_eq]
theorem acc_step (c : Dev nD) (t : Fin cfg0.N) (h : ¬ t.val % 16 = 0) :
    acc m c t.val = k0_pay2 (k0_pay5 (iblk m c 0 t) (iblk m c 1 t)) (acc m c (t.val - 1)) := by
  unfold acc; rw [accOf_step _ _ _ h, Xb_eq, Yb_eq]

/-- The region invariant before point `n`: at first the launch's own (the scratch at anything); afterwards the
    scratch at the running minimum the point before left, and the generator register at some state. -/
def PhiS (c : Dev nD) : ℕ → sProp 𝕄
  | 0 => Pipeline.ΦA spec0 c
  | n + 1 => iprop(iprop(owns (c : Thread nD τ) scM fullShare (acc m c n)) ∗ (∃ r, prngReg c r))

theorem PhiS_pos (c : Dev nD) (n : ℕ) (hz : n ≠ 0) :
    PhiS m c n = iprop(iprop(owns (c : Thread nD τ) scM fullShare (acc m c (n - 1))) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val
    | ⟨3, _⟩ => colmin m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = acc m c t.val := by dsimp only [dats]
theorem after_3 (c : Dev nD) (t : Fin cfg0.N) : (dats m 0 c).after 3 t = colmin m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the three conditions put the point in one of the
    three cases; the invariant hands the body the scratch (at anything at the first point, at the running minimum
    of the point before afterwards) and takes it back at this point's running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = iprop(iprop(owns (c : Thread nD τ) scM fullShare (acc m c t.val)) ∗ (∃ r, prngReg c r)) from rfl]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  unfold colmin
  have hN : t.val < 128 := lt_of_lt_of_eq t.isLt (show cfg0.N = 128 from N_0)
  by_cases h0 : t.val % 16 = 0
  · have h15 : ¬ t.val % 16 = 15 := by omega
    rw [Dat.leavesExact_idle (dats m 0 c) 2 t (idle2 t h15) (noFlush2 t h15)]
    rw [acc_start m c t h0]
    by_cases hz : t.val = 0
    · rw [show PhiS m c t.val = Pipeline.ΦA spec0 c from by rw [hz]; rfl, PhiA_eq]
      iintro ⟨⟨HS, Hg⟩, Ho, ⟨%d0, H0⟩, ⟨%d1, H1⟩, ⟨%d2, H2⟩, ⟨%d3, H3⟩⟩
      iapply (runA c (grid0.coords t) _ _ _ _ _ _ _ _ _ _ ((hcond1 t).mpr h0) (fun h => (hcond2 t).mp h h0) (fun h => h15 ((hcond3 t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [PhiS_pos m c _ hz]
      iintro ⟨⟨HS, Hg⟩, Ho, ⟨%d0, H0⟩, ⟨%d1, H1⟩, ⟨%d2, H2⟩, ⟨%d3, H3⟩⟩
      iapply (runA c (grid0.coords t) _ _ _ _ _ _ _ _ _ _ ((hcond1 t).mpr h0) (fun h => (hcond2 t).mp h h0) (fun h => h15 ((hcond3 t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have hz : t.val ≠ 0 := fun e => h0 (by rw [e])
    rw [PhiS_pos m c _ hz, acc_step m c t h0]
    by_cases h15 : t.val % 16 = 15
    · rw [show (dats m 0 c).leavesExact 2 t = owns (c : Thread nD τ) (ms2 t) fullShare ((dats m 0 c).after 2 t) from by
        unfold Dat.leavesExact; rw [live2 t h15], after_2, acc_step m c t h0]
      iintro ⟨⟨HS, Hg⟩, Ho, ⟨%d0, H0⟩, ⟨%d1, H1⟩, ⟨%d2, H2⟩, ⟨%d3, H3⟩⟩
      iapply (runC c (grid0.coords t) _ _ _ _ _ _ _ _ _ _ (fun h => h0 ((hcond1 t).mp h)) ((hcond2 t).mpr h0) ((hcond3 t).mpr h15) (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 2 t (idle2 t h15) (noFlush2 t h15)]
      iintro ⟨⟨HS, Hg⟩, Ho, ⟨%d0, H0⟩, ⟨%d1, H1⟩, ⟨%d2, H2⟩, ⟨%d3, H3⟩⟩
      iapply (runB c (grid0.coords t) _ _ _ _ _ _ _ _ _ _ (fun h => h0 ((hcond1 t).mp h)) ((hcond2 t).mpr h0) (fun h => h15 ((hcond3 t).mp h)) (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the launch's back: the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 128 from N_0]; decide), PhiA_eq]
  iintro ⟨HS, Hg⟩
  isplitl [HS]
  · iexists _; iexact HS
  iexact Hg

/-! ## The run and the frame -/

set_option backward.isDefEq.respectTransparency.types false in
/-- Every weakly fair execution of the program terminates, and in every final state each array of the pipeline
    holds what the write-backs of the proof data leave, every other unscoped buffer what the host operations after
    the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.BlockReads.lean ====
/-
  The two input blocks the body reads at a grid point, as entries of the two clouds.

  The grid has 8 × 16 points; point t has coordinates (t / 16, t % 16). At point t the first window holds points
  1024·(t / 16) … 1024·(t / 16) + 1023 of the first cloud, all four batches and all three coordinates, and the
  second window holds points 512·(t % 16) … 512·(t % 16) + 511 of the second cloud. So entry (b, k, r) of the first
  block is entry (b, k, 1024·(t / 16) + r) of the first array, and entry (b, k, l) of the second block is entry
  (b, k, 512·(t % 16) + l) of the second array.
-/
import proofs.«158403_j85237920956691_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]
variable (m : (ℓ : Loc nD τ sig) → Buf (Elt F) ℓ)

/-- The block indices of the two input windows at point t: (0, 0, t / 16) and (0, 0, t % 16). -/
theorem in_index_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 0 ∧ win0_1.index t (2 : Fin 3) = t.val % 16 :=
  (by decide +kernel : ∀ t : Fin grid0.N, _)

/-- A point's number is below 128. -/
theorem point_lt (t : Fin cfg0.N) : t.val < 128 := lt_of_lt_of_eq t.isLt N_0

/-- The first cloud's point under entry r of the block at point t. -/
theorem col0_lt (t : Fin cfg0.N) (r : Fin 1024) : 1024 * (t.val / 16) + r.val < 8192 := by
  have := point_lt t; have := r.isLt; omega

/-- The second cloud's point under entry l of the block at point t. -/
theorem col1_lt (t : Fin cfg0.N) (l : Fin 512) : 512 * (t.val % 16) + l.val < 8192 := by
  have := l.isLt; omega

/-- Entry (b, k, r) of the first window's block at point t is entry (b, k, 1024·(t / 16) + r) of the first array. -/
theorem iblk0_apply (c : Dev nD) (t : Fin cfg0.N) (b : Fin 4) (k : Fin 3) (r : Fin 1024) :
    (iblk m c 0 t : Vec F S4x3x1024 .f32) (ix3 b k r)
      = (V m c main_arg0 : S4x3x8192.Idx → Elt F .f32) (ix3 b k ⟨1024 * (t.val / 16) + r.val, col0_lt t r⟩) := by
  obtain ⟨e0, e1, e2, -⟩ := in_index_facts t
  unfold iblk
  rw [View.read_apply]
  show V m c main_arg0 _ = V m c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 3 + 1 * k.val = k.val; rw [e1]; omega
  | ⟨2, _⟩ => show win0_0.index t (2 : Fin 3) * 1024 + 1 * r.val = 1024 * (t.val / 16) + r.val; rw [e2]; omega

/-- Entry (b, k, l) of the second window's block at point t is entry (b, k, 512·(t % 16) + l) of the second array. -/
theorem iblk1_apply (c : Dev nD) (t : Fin cfg0.N) (b : Fin 4) (k : Fin 3) (l : Fin 512) :
    (iblk m c 1 t : Vec F S4x3x512 .f32) (ix3 b k l)
      = (V m c main_arg1 : S4x3x8192.Idx → Elt F .f32) (ix3 b k ⟨512 * (t.val % 16) + l.val, col1_lt t l⟩) := by
  obtain ⟨-, -, -, e0, e1, e2⟩ := in_index_facts t
  unfold iblk
  rw [View.read_apply]
  show V m c main_arg1 _ = V m c main_arg1 _
  congr 1
  funext a
  apply Fin.ext
  match a with
  | ⟨0, _⟩ => show win0_1.index t (0 : Fin 3) * 4 + 1 * b.val = b.val; rw [e0]; omega
  | ⟨1, _⟩ => show win0_1.index t (1 : Fin 3) * 3 + 1 * k.val = k.val; rw [e1]; omega
  | ⟨2, _⟩ => show win0_1.index t (2 : Fin 3) * 512 + 1 * l.val = 512 * (t.val % 16) + l.val; rw [e2]; omega

end Cert.KernelIdeal.Hand

end
-- ==== Proof.KI.Arrays.lean ====
/-
  From what each grid point writes back to the two output arrays after the whole grid.

  The grid has 8 × 16 points; point t has coordinates (t / 16, t % 16). The array of row minima, [4, 8192], is
  written in blocks [4, 1024]: block t / 16, and only by the points with t % 16 = 15. The array of partial column
  minima, [8, 4, 8192], is written in blocks [1, 4, 512]: block (t / 16, 0, t % 16), by every point. The blocks of
  the writing points cover each array, so if every writing point leaves in its block the entries of one function
  G of the array's indices, the array ends equal to G.
-/
import proofs.«158403_j85237920956691_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]

/-- The block indices of the two output windows at point t: (0, t / 16) and (t / 16, 0, t % 16). -/
theorem out_index_facts : ∀ t : Fin cfg0.N,
    win0_2.index t (0 : Fin 2) = 0 ∧ win0_2.index t (1 : Fin 2) = t.val / 16
    ∧ win0_3.index t (0 : Fin 3) = t.val / 16 ∧ win0_3.index t (1 : Fin 3) = 0 ∧ win0_3.index t (2 : Fin 3) = t.val % 16 :=
  (by decide +kernel : ∀ t : Fin grid0.N, _)

/-- The row under entry r of the block written at point t. -/
theorem row_lt (t : Fin cfg0.N) (r : Fin 1024) : 1024 * (t.val / 16) + r.val < 8192 := by
  have := lt_of_lt_of_eq t.isLt N_0; have := r.isLt; omega

/-- The slab a point writes. -/
theorem slab_lt (t : Fin cfg0.N) : t.val / 16 < 8 := by
  have := lt_of_lt_of_eq t.isLt N_0; omega

/-- The column under entry l of the block written at point t. -/
theorem col_lt (t : Fin cfg0.N) (l : Fin 512) : 512 * (t.val % 16) + l.val < 8192 := by
  have := l.isLt; omega

/-! ## The row minima -/

/-- An index of the array lies in point t's block iff each coordinate lies in the block's range on its axis. -/
theorem mem_rows_blk (t : Fin cfg0.N) (i : S4x8192.Idx) :
    i ∈ ((cfg0.win 2).blk t).view.set ↔ ∀ a : Fin 2, win0_2.index t a * S4x1024.size a ≤ (i a).val
      ∧ (i a).val < win0_2.index t a * S4x1024.size a + S4x1024.size a := by
  show i ∈ ((View.whole main_v0_0).slice (win0_2.rect t)).set ↔ _
  rw [View.set_slice_whole, Rect.mem_set_unit]
  exact Iff.rfl

/-- Row n of the array lies in the block of the last point of slab n / 1024. -/
theorem rows_cover (i : S4x8192.Idx) :
    ∃ t : Fin cfg0.N, (cfg0.win 2).flush t = true ∧ i ∈ ((cfg0.win 2).blk t).view.set := by
  have h0 : (i 0).val < 4 := (i 0).isLt
  have h1 : (i 1).val < 8192 := (i 1).isLt
  obtain ⟨t, tv⟩ : ∃ t : Fin cfg0.N, t.val = 16 * ((i 1).val / 1024) + 15 :=
    ⟨⟨16 * ((i 1).val / 1024) + 15, by rw [show cfg0.N = 128 from N_0]; omega⟩, rfl⟩
  refine ⟨t, (flush0_2 t).mpr (by rw [tv]; omega), ?_⟩
  rw [mem_rows_blk]
  obtain ⟨e0, e1, -⟩ := out_index_facts t
  intro a
  match a with
  | ⟨0, _⟩ =>
    show win0_2.index t (0 : Fin 2) * 4 ≤ (i 0).val ∧ (i 0).val < win0_2.index t (0 : Fin 2) * 4 + 4
    rw [e0]; omega
  | ⟨1, _⟩ =>
    show win0_2.index t (1 : Fin 2) * 1024 ≤ (i 1).val ∧ (i 1).val < win0_2.index t (1 : Fin 2) * 1024 + 1024
    rw [e1, tv]; omega

/-- THE ROW MINIMA after the grid: if every point with t % 16 = 15 leaves, at (b, r) of its block, the value of G at
    (b, 1024·(t / 16) + r), the array ends equal to G. -/
theorem final2 (c : Dev nD) (dat : Dat τ (Elt F) Unit ℕ (UR sig nD τ) ℕ cfg0 c)
    (G : Buf (Elt F) ((cfg0.win 2).arr.view.loc (c.tc : Thread nD τ)))
    (h : ∀ t : Fin cfg0.N, t.val % 16 = 15 → ∀ (b : Fin 4) (r : Fin 1024),
      (dat.after 2 t : Vec F S4x1024 .f32) (ix2 b r)
        = (G : S4x8192.Idx → Elt F .f32) (ix2 b ⟨1024 * (t.val / 16) + r.val, row_lt t r⟩)) :
    dat.arrAt 2 cfg0.N = G := by
  refine dat.arrAt_eq_of_cover 2 G (fun t hf => ?_) rows_cover
  have ht : t.val % 16 = 15 := (flush0_2 t).mp hf
  obtain ⟨e0, e1, -⟩ := out_index_facts t
  show (cfg0.win 2).cut (cfg0.grid.coords t) (dat.after 2 t) = _
  funext j
  rw [View.read_apply]
  show (dat.after 2 t : Vec F S4x1024 .f32) j = (G : S4x8192.Idx → Elt F .f32) _
  refine (congrArg (dat.after 2 t : Vec F S4x1024 .f32) (eq_ix2 j)).trans ((h t ht (j 0) (j 1)).trans ?_)
  congr 1
  funext a
  apply Fin.ext
  match a with
  | ⟨0, _⟩ => show (j 0).val = win0_2.index t (0 : Fin 2) * 4 + 1 * (j 0).val; rw [e0]; omega
  | ⟨1, _⟩ => show 1024 * (t.val / 16) + (j 1).val = win0_2.index t (1 : Fin 2) * 1024 + 1 * (j 1).val; rw [e1]; omega

/-! ## The partial column minima -/

/-- An index of the array lies in point t's block iff each coordinate lies in the block's range on its axis. -/
theorem mem_cols_blk (t : Fin cfg0.N) (i : S8x4x8192.Idx) :
    i ∈ ((cfg0.win 3).blk t).view.set ↔ ∀ a : Fin 3, win0_3.index t a * S1x4x512.size a ≤ (i a).val
      ∧ (i a).val < win0_3.index t a * S1x4x512.size a + S1x4x512.size a := by
  show i ∈ ((View.whole main_v0_1).slice (win0_3.rect t)).set ↔ _
  rw [View.set_slice_whole, Rect.mem_set_unit]
  exact Iff.rfl

/-- Entry (s, b, n) of the array lies in the block of point 16·s + n / 512. -/
theorem cols_cover (i : S8x4x8192.Idx) :
    ∃ t : Fin cfg0.N, (cfg0.win 3).flush t = true ∧ i ∈ ((cfg0.win 3).blk t).view.set := by
  have h0 : (i 0).val < 8 := (i 0).isLt
  have h1 : (i 1).val < 4 := (i 1).isLt
  have h2 : (i 2).val < 8192 := (i 2).isLt
  obtain ⟨t, tv⟩ : ∃ t : Fin cfg0.N, t.val = 16 * (i 0).val + (i 2).val / 512 :=
    ⟨⟨16 * (i 0).val + (i 2).val / 512, by rw [show cfg0.N = 128 from N_0]; omega⟩, rfl⟩
  refine ⟨t, flush0_3 t, ?_⟩
  rw [mem_cols_blk]
  obtain ⟨-, -, e0, e1, e2⟩ := out_index_facts t
  intro a
  match a with
  | ⟨0, _⟩ =>
    show win0_3.index t (0 : Fin 3) * 1 ≤ (i 0).val ∧ (i 0).val < win0_3.index t (0 : Fin 3) * 1 + 1
    rw [e0, tv]; omega
  | ⟨1, _⟩ =>
    show win0_3.index t (1 : Fin 3) * 4 ≤ (i 1).val ∧ (i 1).val < win0_3.index t (1 : Fin 3) * 4 + 4
    rw [e1]; omega
  | ⟨2, _⟩ =>
    show win0_3.index t (2 : Fin 3) * 512 ≤ (i 2).val ∧ (i 2).val < win0_3.index t (2 : Fin 3) * 512 + 512
    rw [e2, tv]; omega

/-- THE PARTIAL COLUMN MINIMA after the grid: if every point leaves, at (0, b, l) of its block, the value of G at
    (t / 16, b, 512·(t % 16) + l), the array ends equal to G. -/
theorem final3 (c : Dev nD) (dat : Dat τ (Elt F) Unit ℕ (UR sig nD τ) ℕ cfg0 c)
    (G : Buf (Elt F) ((cfg0.win 3).arr.view.loc (c.tc : Thread nD τ)))
    (h : ∀ (t : Fin cfg0.N) (b : Fin 4) (l : Fin 512),
      (dat.after 3 t : Vec F S1x4x512 .f32) (ix3 (0 : Fin 1) b l)
        = (G : S8x4x8192.Idx → Elt F .f32) (ix3 ⟨t.val / 16, slab_lt t⟩ b ⟨512 * (t.val % 16) + l.val, col_lt t l⟩)) :
    dat.arrAt 3 cfg0.N = G := by
  refine dat.arrAt_eq_of_cover 3 G (fun t _ => ?_) cols_cover
  obtain ⟨-, -, e0, e1, e2⟩ := out_index_facts t
  show (cfg0.win 3).cut (cfg0.grid.coords t) (dat.after 3 t) = _
  funext j
  rw [View.read_apply]
  show (dat.after 3 t : Vec F S1x4x512 .f32) j = (G : S8x4x8192.Idx → Elt F .f32) _
  have hj0 : (j 0).val = 0 := by have : (j 0).val < 1 := (j 0).isLt; omega
  have hj : (j : S1x4x512.Idx) = ix3 (0 : Fin 1) (j 1) (j 2) :=
    (eq_ix3 j).trans (congrArg (fun u : Fin 1 => ix3 u (j 1) (j 2)) (Fin.ext hj0))
  refine (congrArg (dat.after 3 t : Vec F S1x4x512 .f32) hj).trans ((h t (j 1) (j 2)).trans ?_)
  congr 1
  funext a
  apply Fin.ext
  match a with
  | ⟨0, _⟩ => show t.val / 16 = win0_3.index t (0 : Fin 3) * 1 + 1 * (j 0).val; rw [e0, hj0]; omega
  | ⟨1, _⟩ => show (j 1).val = win0_3.index t (1 : Fin 3) * 4 + 1 * (j 1).val; rw [e1]; omega
  | ⟨2, _⟩ => show 512 * (t.val % 16) + (j 2).val = win0_3.index t (2 : Fin 3) * 512 + 1 * (j 2).val; rw [e2]; omega

end Cert.KernelIdeal.Hand

end
-- ==== Proof.LibMinLaws.lean ====
/-
  Order facts about minima of extended reals, used to compare a minimum taken tile by tile, with a
  monotone map applied once at the end, against one minimum of the mapped values.

  * a fold of `min` from `⊤` over a finite index type is the infimum;
  * the infimum over the first `w·(j+1)` entries of a family on `Fin (w·q)` is the infimum over the first
    `w·j` entries met with the infimum over block `j`;
  * a monotone map commutes with the infimum of a finite non-empty family (the infimum is attained);
  * the square root on the extended reals is monotone.
-/
import Idealize.ShloMosaic.PureOps.Ideal
import Mathlib.Order.ConditionallyCompleteLattice.Finset
import Mathlib.Data.Finset.Fold

noncomputable section

namespace Cert.MinLaws

open Idealize.ShloMosaic

/-- Folding `min` from `⊤` over all of a finite type gives the infimum of the family. -/
theorem fold_min_top {ι : Type} [Fintype ι] (f : ι → EReal) :
    (Finset.univ : Finset ι).fold min ⊤ f = ⨅ k, f k := by
  apply le_antisymm
  · exact le_iInf fun k => (Finset.fold_min_le _).mpr (Or.inr ⟨k, Finset.mem_univ _, le_rfl⟩)
  · exact (Finset.le_fold_min _).mpr ⟨le_top, fun k _ => iInf_le f k⟩

/-- No entry lies before position `0`: the infimum over the empty prefix is `⊤`. -/
theorem iInf_prefix_zero {N : ℕ} (w : ℕ) (h : Fin N → EReal) :
    (⨅ n : Fin N, if n.val < w * 0 then h n else ⊤) = ⊤ :=
  iInf_eq_top.mpr fun n => if_neg (by omega)

/-- The prefix of length `w·(j+1)` is the prefix of length `w·j` followed by block `j`: the infimum over it is
    the smaller of the two infima. -/
theorem iInf_prefix_succ {N : ℕ} (w j : ℕ) (hj : w * (j + 1) ≤ N) (h : Fin N → EReal) :
    (⨅ n : Fin N, if n.val < w * (j + 1) then h n else ⊤)
      = min (⨅ n : Fin N, if n.val < w * j then h n else ⊤)
            (⨅ k : Fin w, h ⟨w * j + k.val, by have := k.isLt; rw [Nat.mul_succ] at hj; omega⟩) := by
  have hw : w * (j + 1) = w * j + w := Nat.mul_succ w j
  apply le_antisymm
  · refine le_min (le_iInf fun n => ?_) (le_iInf fun k => ?_)
    · by_cases hn : n.val < w * j
      · rw [if_pos hn]
        exact iInf_le_of_le n (le_of_eq (if_pos (by omega)))
      · rw [if_neg hn]; exact le_top
    · exact iInf_le_of_le ⟨w * j + k.val, by have := k.isLt; omega⟩
        (le_of_eq (if_pos (by have := k.isLt; show w * j + k.val < w * (j + 1); omega)))
  · refine le_iInf fun n => ?_
    by_cases hn1 : n.val < w * (j + 1)
    · rw [if_pos hn1]
      by_cases hn : n.val < w * j
      · exact (min_le_left _ _).trans (iInf_le_of_le n (le_of_eq (if_pos hn)))
      · exact (min_le_right _ _).trans (iInf_le_of_le ⟨n.val - w * j, by omega⟩
          (le_of_eq (congrArg h (Fin.ext (by show w * j + (n.val - w * j) = n.val; omega)))))
    · rw [if_neg hn1]; exact le_top

/-- When the prefix is everything, the guard disappears. -/
theorem iInf_prefix_all {N : ℕ} (L : ℕ) (hL : N ≤ L) (h : Fin N → EReal) :
    (⨅ n : Fin N, if n.val < L then h n else ⊤) = ⨅ n : Fin N, h n :=
  iInf_congr fun n => if_pos (lt_of_lt_of_le n.isLt hL)

/-- A monotone map of the extended reals commutes with the infimum of a finite non-empty family: the
    infimum is one of the family's values. -/
theorem map_iInf_of_monotone {ι : Type} [Finite ι] [Nonempty ι] {f : EReal → EReal} (hf : Monotone f)
    (a : ι → EReal) : f (⨅ i, a i) = ⨅ i, f (a i) := by
  obtain ⟨i₀, h⟩ := exists_eq_ciInf_of_finite (f := a)
  apply le_antisymm
  · exact le_iInf fun i => hf (iInf_le a i)
  · rw [← h]; exact iInf_le (fun i => f (a i)) i₀

/-- The square root of the extended reals (`⊥` below zero, `√⊤ = ⊤`) is monotone. -/
theorem sqrt_mono : Monotone Ideal.sqrt := by
  intro x y hxy
  induction x using EReal.rec with
  | bot => rw [Ideal.sqrt_bot]; exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

/-- Adding a fixed value, clamping below at zero and taking the square root is monotone. -/
theorem sqrt_clamp_add_mono (k z : EReal) : Monotone fun x : EReal => Ideal.sqrt (max (x + k) z) :=
  fun _ _ h => sqrt_mono (max_le_max (add_le_add h le_rfl) le_rfl)

end Cert.MinLaws

end
-- ==== Proof.LibFloatWords.lean ====
/-
  The extended reals a few f32 words denote: +∞, 2 and -2.
-/
import Idealize.ShloMosaic.PureOps.Ideal

noncomputable section

namespace Cert.FloatWords

open Idealize.ShloMosaic

/-- The word of f32's `+inf` denotes `⊤`. -/
theorem ofBits_inf : Ideal.ofBits .f32 0x7F800000#32 = ⊤ := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

end Cert.FloatWords

end
-- ==== Proof.LaneMin.lean ====
/-
  A minimum taken along one axis of an array of extended reals.

  Reducing an array with `min` along one axis gives, at each index of the remaining axes, the fold of `min`
  over that axis's coordinates, started from the value the accumulator word denotes. When the accumulator is
  the word of +∞, which denotes `⊤`, the fold is the infimum of the entries along the axis.
-/
import Idealize.ShloMosaic.PureOps.Ideal
import Idealize.ShloMosaic.PureOps.Ideal.Laws
import Idealize.ShloMosaic.PureOps.Reduce
import proofs.«158403_j85237920956691_2_alg».proof.Proof.LibMinLaws
import proofs.«158403_j85237920956691_2_alg».proof.Proof.LibFloatWords

noncomputable section

namespace Cert.LaneMin

open Idealize.ShloMosaic

variable {φ : FTy}

/-- A `minimumf` reduction over ONE axis, read at the extended reals: at each reduced index, the fold of `min`
    from the accumulator's value over that axis's coordinates (the reduced index with the coordinate inserted). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the word of +∞ at f32, which denotes `⊤`, the fold is the infimum along the axis. -/
theorem multiReduction_minimumf_inf_single {s t : Shape} {a : Fin s.rank} (src : FVec Ideal s .f32)
    (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [Cert.FloatWords.ofBits_inf]
  exact Cert.MinLaws.fold_min_top _

end Cert.LaneMin

end
-- ==== Proof.PayMin.lean ====
/-
  The two minima the kernel's body takes of the table of squared distances, and the values it stores, read at
  an index.

  The body forms the table d(b, r, l) of one block of the first cloud against one block of the second. Its minimum
  along the last axis is, at (b, r), the infimum over l of d(b, r, l); its minimum along the middle axis is, at
  (b, l), the infimum over r of d(b, r, l). The stored values are these up to casts that keep every entry in
  place: a cast of a [4,1024] array to its own shape, the entrywise minimum of two such arrays, and a cast of a
  [4,512] array to [1,4,512].
-/
import proofs.«158403_j85237920956691_2_alg».proof.Proof.Gen.KernelIdeal.Skeleton
import proofs.«158403_j85237920956691_2_alg».proof.Proof.LaneMin
import Idealize.ShloMosaic.Lib.ValueIdx
import Idealize.ShloMosaic.Lib.ValueLayout

noncomputable section

namespace Cert.PayMin

open Idealize.ShloMosaic Idealize.ShloMosaic.ValueIdx
open Cert.KernelIdeal Cert.KernelIdeal.Gen

/-- Inserting the coordinate `l` on the last axis of (b, r) gives (b, r, l). -/
theorem lift_last (h : S4x1024x512.Reduces [2] S4x1024) (b : Fin 4) (r : Fin 1024) (l : Fin 512) :
    h.lift (ix2 b r) l = ix3 b r l := by
  funext c
  apply Fin.ext
  match c with
  | ⟨0, _⟩ => rfl
  | ⟨1, _⟩ => rfl
  | ⟨2, _⟩ => rfl

/-- Inserting the coordinate `r` on the middle axis of (b, l) gives (b, r, l). -/
theorem lift_mid (h : S4x1024x512.Reduces [1] S4x512) (b : Fin 4) (l : Fin 512) (r : Fin 1024) :
    h.lift (ix2 b l) r = ix3 b r l := by
  funext c
  apply Fin.ext
  match c with
  | ⟨0, _⟩ => rfl
  | ⟨1, _⟩ => rfl
  | ⟨2, _⟩ => rfl

/-- The minimum along the last axis, at (b, r): the least of d(b, r, l) over l. -/
theorem pay5_apply (v0 : Vec Ideal S4x3x1024 .f32) (v1 : Vec Ideal S4x3x512 .f32) (b : Fin 4) (r : Fin 1024) :
    k0_pay5 (F := Ideal) v0 v1 (ix2 b r) = ⨅ l : Fin 512, k0_pay4 (F := Ideal) v0 v1 (ix3 b r l) := by
  unfold k0_pay5
  refine (Cert.LaneMin.multiReduction_minimumf_inf_single (k0_pay4 (F := Ideal) v0 v1) _ _ _ (ix2 b r)).trans ?_
  exact iInf_congr fun l => congrArg (k0_pay4 (F := Ideal) v0 v1) (lift_last _ b r l)

/-- The minimum along the middle axis, at (b, l): the least of d(b, r, l) over r. -/
theorem pay6_apply (v0 : Vec Ideal S4x3x1024 .f32) (v1 : Vec Ideal S4x3x512 .f32) (b : Fin 4) (l : Fin 512) :
    k0_pay6 (F := Ideal) v0 v1 (ix2 b l) = ⨅ r : Fin 1024, k0_pay4 (F := Ideal) v0 v1 (ix3 b r l) := by
  unfold k0_pay6
  refine (Cert.LaneMin.multiReduction_minimumf_inf_single (k0_pay4 (F := Ideal) v0 v1) _ _ _ (ix2 b l)).trans ?_
  exact iInf_congr fun r => congrArg (k0_pay4 (F := Ideal) v0 v1) (lift_mid _ b l r)

/-- A cast of an array to its own shape changes nothing. -/
theorem pay1_eq {F : FTy → Type} [FloatOps F] (v : FVec F S4x1024 .f32) : k0_pay1 v = v := by
  unfold k0_pay1
  exact shapeCast_self v _

/-- The entrywise minimum of the stored row minima and the new ones, cast to its own shape. -/
theorem pay2_apply (v43 v57 : FVec Ideal S4x1024 .f32) (i : S4x1024.Idx) :
    k0_pay2 (F := Ideal) v43 v57 i = min (v57 i) (v43 i) := by
  unfold k0_pay2
  rw [shapeCast_self]
  rfl

/-- The column minima stored under a leading axis of length one: entry (0, b, l) is entry (b, l). -/
theorem pay3_apply (v44 : FVec Ideal S4x512 .f32) (b : Fin 4) (l : Fin 512) :
    k0_pay3 (F := Ideal) v44 (ix3 (0 : Fin 1) b l) = v44 (ix2 b l) := by
  unfold k0_pay3
  exact shapeCast_ab_1ab_apply v44 _ 0 b l

end Cert.PayMin

end
-- ==== Proof.Spec.lean ====
/-
  The mathematics both programs compute, stated once, with no reference to either program.

  Two clouds of 8192 points in three coordinates, four batches, stored coordinate-major: entry (b, k, n) of an
  array is coordinate k of point n of batch b. For a point p of the first cloud and a point q of the second, the
  squared distance is written the way both programs expand it, |p|² + |q|² - 2 p·q (`d2p`). `distX` is, for
  each point of the first cloud, the least squared distance to the second cloud; `distY` the same with the
  clouds exchanged. The result is the mean of `distX` plus the mean of `distY` (`tail`: each mean a sum over the
  4·8192 entries divided by 32768).
-/
import Idealize.ShloMosaic.PureOps
import Idealize.ShloMosaic.PureOps.Ideal
import Idealize.ShloMosaic.Lib.ValueIdx

noncomputable section

namespace Cert.Spec

open Idealize.ShloMosaic Idealize.ShloMosaic.ValueIdx
open scoped BigOperators

/-- The shape of each cloud: batch, coordinate, point. -/
abbrev SIn : Shape := ⟨3, ![4, 3, 8192]⟩
/-- The shape of the per-point minima: batch, point. -/
abbrev SOut : Shape := ⟨2, ![4, 8192]⟩
/-- The scalar shape. -/
abbrev S0 : Shape := ⟨0, ![]⟩

/-- The squared distance between the points with coordinates `p` and `q`, expanded: |p|² + |q|² - 2 p·q. -/
def d2p (p q : Fin 3 → EReal) : EReal :=
  ((∑ k : Fin 3, p k * p k) + (∑ k : Fin 3, q k * q k)) - ((2 : ℝ) : EReal) * ∑ k : Fin 3, p k * q k

/-- The squared distance between point `n` of the first cloud and point `m` of the second, in batch `b`. -/
def d2 (x y : FVec Ideal SIn .f32) (b : Fin 4) (n m : Fin 8192) : EReal :=
  d2p (fun k => x (ix3 b k n)) (fun k => y (ix3 b k m))

/-- For each point of the first cloud, the least squared distance to a point of the second. -/
def distX (x y : FVec Ideal SIn .f32) : FVec Ideal SOut .f32 :=
  fun i => ⨅ m : Fin 8192, d2 x y (i 0) (i 1) m

/-- For each point of the second cloud, the least squared distance to a point of the first. -/
def distY (x y : FVec Ideal SIn .f32) : FVec Ideal SOut .f32 :=
  fun i => ⨅ n : Fin 8192, d2 x y (i 0) n (i 1)

/-- The mean of the first array plus the mean of the second: each the sum of all 32768 entries, from zero,
    divided by 32768. -/
def tail (h : SOut.ReducesTo [0, 1] S0) (h0 : 0 < S0.numel) (dx dy : FVec Ideal SOut .f32) : FVec Ideal S0 .f32 :=
  addf (F := Ideal)
    (Host.divf (F := Ideal) (Host.reduceAdd (F := Ideal) dx (constant (F := Ideal) S0 .f32 0x00000000#32) h h0)
      (constant (F := Ideal) S0 .f32 0x47000000#32))
    (Host.divf (F := Ideal) (Host.reduceAdd (F := Ideal) dy (constant (F := Ideal) S0 .f32 0x00000000#32) h h0)
      (constant (F := Ideal) S0 .f32 0x47000000#32))

end Cert.Spec

end
-- ==== Proof.DistLaw.lean ====
/-
  The squared distance of two points of real coordinates, in the arrangement that subtracts the three cross terms
  one after the other.

  For p, q with three real coordinates each,
    (((|p|² + |q|²) - (2 p₀) q₀) - (2 p₁) q₁) - (2 p₂) q₂  =  |p|² + |q|² - 2 (p₀ q₀ + p₁ q₁ + p₂ q₂).
  On the extended reals subtraction does not regroup freely; with every coordinate a real number both sides are
  real numbers and the identity is the ring identity.
-/
import Mathlib.Data.EReal.Operations
import Mathlib.Algebra.BigOperators.Fin
import Mathlib.Tactic.Ring
import proofs.«158403_j85237920956691_2_alg».proof.Proof.Spec

noncomputable section

namespace Cert.DistLaw

open scoped BigOperators

/-- Subtracting the cross terms one at a time gives the expanded squared distance, when all coordinates are real. -/
theorem cross_terms_one_by_one (p q : Fin 3 → EReal) (hp : ∀ k, ∃ a : ℝ, p k = (a : EReal))
    (hq : ∀ k, ∃ a : ℝ, q k = (a : EReal)) :
    ((((∑ k : Fin 3, p k * p k) + (∑ k : Fin 3, q k * q k)) - (((2 : ℝ) : EReal) * p 0) * q 0)
        - (((2 : ℝ) : EReal) * p 1) * q 1) - (((2 : ℝ) : EReal) * p 2) * q 2
      = Cert.Spec.d2p p q := by
  obtain ⟨a0, h0⟩ := hp 0
  obtain ⟨a1, h1⟩ := hp 1
  obtain ⟨a2, h2⟩ := hp 2
  obtain ⟨b0, g0⟩ := hq 0
  obtain ⟨b1, g1⟩ := hq 1
  obtain ⟨b2, g2⟩ := hq 2
  unfold Cert.Spec.d2p
  simp only [Fin.sum_univ_three, h0, h1, h2, g0, g1, g2, ← EReal.coe_mul, ← EReal.coe_add, ← EReal.coe_sub]
  congr 1
  ring

end Cert.DistLaw

end
-- ==== Proof.PayDistCasts.lean ====
/-
  Casts and broadcasts of small arrays read at an index given by coordinates.

  A row of values indexed (i, j) is turned into a column block [a, b, 1] or a row block [a, 1, b] by a cast that
  keeps the row-major order, and such a block is repeated along its unit axis by a broadcast. Read at (i, j, k),
  each of these returns the entry of the operand with the unit coordinate set to 0; a cast that removes the
  middle unit axis reads (i, j) at (i, 0, j).
-/
import Idealize.ShloMosaic.Lib.ValueIdx
import Idealize.ShloMosaic.Lib.ValueLayout

noncomputable section

namespace Cert.PayDistCasts

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.PayDistCasts

end
-- ==== Proof.PayDist.lean ====
/-
  The table of squared distances the kernel's body forms, read at an index.

  From a block v0 of the first cloud and a block v1 of the second (entry (b, k, n): coordinate k of point n in
  batch b), the body forms d(b, r, l) from four kinds of pieces: the squared norms of point r of v0 and of point
  l of v1, each a sum over the three coordinates, spread over the table as a column and as a row; and for each
  coordinate k the product of (2·v0(b, k, r)), spread as a column, with v1(b, k, l), spread as a row. It adds
  the two norms and subtracts the three products one after the other. With real coordinates this is the
  expanded squared distance |p|² + |q|² - 2 p·q of the two points.
-/
import proofs.«158403_j85237920956691_2_alg».proof.Proof.Gen.KernelIdeal.Skeleton
import proofs.«158403_j85237920956691_2_alg».proof.Proof.LibFloatWords
import proofs.«158403_j85237920956691_2_alg».proof.Proof.DistLaw
import proofs.«158403_j85237920956691_2_alg».proof.Proof.PayDistCasts
import Idealize.ShloMosaic.Lib.ValueIdx
import Idealize.ShloMosaic.Lib.ValueLayout
import Idealize.ShloMosaic.PureOps.Ideal.Laws

noncomputable section

namespace Cert.PayDist

open Idealize.ShloMosaic Idealize.ShloMosaic.ValueIdx
open Cert.KernelIdeal Cert.KernelIdeal.Gen Cert.PayDistCasts
open scoped BigOperators

/-- Inserting the coordinate `k` on the middle axis of (b, r) gives (b, k, r). -/
theorem lift_coord {n : ℕ} (h : (⟨3, ![4, 3, n]⟩ : Shape).Reduces [1] ⟨2, ![4, n]⟩) (b : Fin 4) (r : Fin n) (k : Fin 3) :
    h.lift (ix2 b r) k = ix3 b k r := by
  funext c
  apply Fin.ext
  match c with
  | ⟨0, _⟩ => rfl
  | ⟨1, _⟩ => rfl
  | ⟨2, _⟩ => rfl

/-- The squared norm of a point: the sum over the three coordinates of the squares, at (b, r). -/
theorem sqnorm_apply {n : ℕ} (v : FVec Ideal ⟨3, ![4, 3, n]⟩ .f32)
    (h : (⟨3, ![4, 3, n]⟩ : Shape).Reduces [1] ⟨2, ![4, n]⟩) (hφ : FKind.Formats .f32)
    (hacc : (0x00000000#32 : BitVec 32) = FKind.add.neutral .f32 hφ) (b : Fin 4) (r : Fin n) :
    multiReduction .add [1] ⟨2, ![4, n]⟩ (mulf v v) 0x00000000#32 h hφ hacc (ix2 b r)
      = ∑ k : Fin 3, v (ix3 b k r) * v (ix3 b k r) := by
  refine (Ideal.multiReduction_add_single (mulf v v) _ h hφ hacc (ix2 b r)).trans ?_
  exact Finset.sum_congr rfl fun k _ => by rw [lift_coord h b r k]; rfl

/-- The squared norms of the first block's points, spread along the table's last axis: at (b, r, l), the squared
    norm of point r. -/
theorem norm_col_apply (v0 : FVec Ideal S4x3x1024 .f32) (hr : S4x3x1024.Reduces [1] S4x1024)
    (hφ : FKind.Formats .f32) (hacc : (0x00000000#32 : BitVec 32) = FKind.add.neutral .f32 hφ)
    (hc : S4x1024.ShapeCasts S4x1024x1) (hb : S4x1024x1.Broadcasts S4x1024x512)
    (b : Fin 4) (r : Fin 1024) (l : Fin 512) :
    broadcastTo S4x1024x512
        (shapeCast S4x1024x1 (multiReduction .add [1] S4x1024 (mulf v0 v0) 0x00000000#32 hr hφ hacc) hc) hb (ix3 b r l)
      = ∑ k : Fin 3, v0 (ix3 b k r) * v0 (ix3 b k r) :=
  (broadcastTo_ab1_abc_apply _ hb b r l).trans
    ((shapeCast_ab_ab1_apply _ hc b r 0).trans (sqnorm_apply v0 hr hφ hacc b r))

/-- The squared norms of the second block's points, spread along the table's middle axis: at (b, r, l), the
    squared norm of point l. -/
theorem norm_row_apply (v1 : FVec Ideal S4x3x512 .f32) (hr : S4x3x512.Reduces [1] S4x512)
    (hφ : FKind.Formats .f32) (hacc : (0x00000000#32 : BitVec 32) = FKind.add.neutral .f32 hφ)
    (hc : S4x512.ShapeCasts S4x1x512) (hb : S4x1x512.Broadcasts S4x1024x512)
    (b : Fin 4) (r : Fin 1024) (l : Fin 512) :
    broadcastTo S4x1024x512
        (shapeCast S4x1x512 (multiReduction .add [1] S4x512 (mulf v1 v1) 0x00000000#32 hr hφ hacc) hc) hb (ix3 b r l)
      = ∑ k : Fin 3, v1 (ix3 b k l) * v1 (ix3 b k l) :=
  (broadcastTo_a1c_abc_apply _ hb b r l).trans
    ((shapeCast_ab_a1b_apply _ hc b 0 l).trans (sqnorm_apply v1 hr hφ hacc b l))

/-- Coordinate `k` of an array over the first block's points, cut out, flattened and spread along the table's last
    axis: at (b, r, l), the array at (b, k, r). -/
theorem coord_col_apply {α : Type} (o : ℕ) (k : Fin 3) (hk : k.val = o) (w : S4x3x1024.Idx → α)
    (hs : S4x3x1024.Slices ![0, o, 0] S4x1x1024) (hc1 : S4x1x1024.ShapeCasts S4x1024)
    (hc2 : S4x1024.ShapeCasts S4x1024x1) (hb : S4x1024x1.Broadcasts S4x1024x512)
    (b : Fin 4) (r : Fin 1024) (l : Fin 512) :
    broadcastTo S4x1024x512
        (shapeCast S4x1024x1 (shapeCast S4x1024 (extractStridedSlice S4x1x1024 ![0, o, 0] w hs) hc1) hc2) hb (ix3 b r l)
      = w (ix3 b k r) :=
  (broadcastTo_ab1_abc_apply _ hb b r l).trans
    ((shapeCast_ab_ab1_apply _ hc2 b r 0).trans
      ((shapeCast_a1b_ab_apply _ hc1 b r).trans
        (slice3_axis1_apply o w hs b (0 : Fin 1) r k (by rw [hk]; rfl))))

/-- Coordinate `k` of an array over the second block's points, cut out, flattened and spread along the table's
    middle axis: at (b, r, l), the array at (b, k, l). -/
theorem coord_row_apply {α : Type} (o : ℕ) (k : Fin 3) (hk : k.val = o) (w : S4x3x512.Idx → α)
    (hs : S4x3x512.Slices ![0, o, 0] S4x1x512) (hc1 : S4x1x512.ShapeCasts S4x512)
    (hc2 : S4x512.ShapeCasts S4x1x512) (hb : S4x1x512.Broadcasts S4x1024x512)
    (b : Fin 4) (r : Fin 1024) (l : Fin 512) :
    broadcastTo S4x1024x512
        (shapeCast S4x1x512 (shapeCast S4x512 (extractStridedSlice S4x1x512 ![0, o, 0] w hs) hc1) hc2) hb (ix3 b r l)
      = w (ix3 b k l) :=
  (broadcastTo_a1c_abc_apply _ hb b r l).trans
    ((shapeCast_ab_a1b_apply _ hc2 b 0 l).trans
      ((shapeCast_a1b_ab_apply _ hc1 b l).trans
        (slice3_axis1_apply o w hs b (0 : Fin 1) l k (by rw [hk]; rfl))))

/-- The first block multiplied entrywise by the constant whose word is that of 2.0: at any index, 2 times the entry. -/
theorem twice_apply (v0 : FVec Ideal S4x3x1024 .f32) (i : S4x3x1024.Idx) :
    mulf (broadcast S4x3x1024 (FloatOps.ofBits (F := Ideal) .f32 0x40000000#32)) v0 i = ((2 : ℝ) : EReal) * v0 i := by
  show Ideal.ofBits .f32 0x40000000#32 * v0 i = _
  rw [Cert.FloatWords.ofBits_two]

/-- THE TABLE AT (b, r, l), as the body arranges it: the two squared norms added, then the three products
    (2·v0(b, k, r))·v1(b, k, l) subtracted one after the other. No assumption on the entries. -/
theorem pay4_arranged (v0 : Vec Ideal S4x3x1024 .f32) (v1 : Vec Ideal S4x3x512 .f32)
    (b : Fin 4) (r : Fin 1024) (l : Fin 512) :
    (k0_pay4 (F := Ideal) v0 v1 (ix3 b r l) : EReal)
      = ((((∑ k : Fin 3, (v0 (ix3 b k r) : EReal) * v0 (ix3 b k r)) + (∑ k : Fin 3, (v1 (ix3 b k l) : EReal) * v1 (ix3 b k l)))
            - (((2 : ℝ) : EReal) * v0 (ix3 b 0 r)) * v1 (ix3 b 0 l))
          - (((2 : ℝ) : EReal) * v0 (ix3 b 1 r)) * v1 (ix3 b 1 l))
        - (((2 : ℝ) : EReal) * v0 (ix3 b 2 r)) * v1 (ix3 b 2 l) := by
  unfold k0_pay4
  simp only [subf_apply, addf_apply, mulf_apply]
  refine congrArg₂ (· - ·) (congrArg₂ (· - ·) (congrArg₂ (· - ·) (congrArg₂ (· + ·) ?_ ?_)
    (congrArg₂ (· * ·) ?_ ?_)) (congrArg₂ (· * ·) ?_ ?_)) (congrArg₂ (· * ·) ?_ ?_)
  · exact norm_col_apply v0 _ _ _ _ _ b r l
  · exact norm_row_apply v1 _ _ _ _ _ b r l
  · exact (coord_col_apply 0 0 rfl _ _ _ _ _ b r l).trans (twice_apply v0 _)
  · exact coord_row_apply 0 0 rfl v1 _ _ _ _ b r l
  · exact (coord_col_apply 1 1 rfl _ _ _ _ _ b r l).trans (twice_apply v0 _)
  · exact coord_row_apply 1 1 rfl v1 _ _ _ _ b r l
  · exact (coord_col_apply 2 2 rfl _ _ _ _ _ b r l).trans (twice_apply v0 _)
  · exact coord_row_apply 2 2 rfl v1 _ _ _ _ b r l

/-- THE TABLE AT (b, r, l) with real entries: the expanded squared distance between point r of the first block
    and point l of the second, in batch b. -/
theorem pay4_apply (v0 : Vec Ideal S4x3x1024 .f32) (v1 : Vec Ideal S4x3x512 .f32)
    (hv0 : ∀ i, ∃ a : ℝ, v0 i = (a : EReal)) (hv1 : ∀ i, ∃ a : ℝ, v1 i = (a : EReal))
    (b : Fin 4) (r : Fin 1024) (l : Fin 512) :
    k0_pay4 (F := Ideal) v0 v1 (ix3 b r l)
      = Cert.Spec.d2p (fun k => v0 (ix3 b k r)) (fun k => v1 (ix3 b k l)) :=
  (pay4_arranged v0 v1 b r l).trans
    (Cert.DistLaw.cross_terms_one_by_one (fun k => v0 (ix3 b k r)) (fun k => v1 (ix3 b k l))
      (fun k => hv0 (ix3 b k r)) (fun k => hv1 (ix3 b k l)))

end Cert.PayDist

end
-- ==== Proof.KI.AccMath.lean ====
/-
  The kernel's running minimum, in closed form.

  Grid point n = 16·i + j pairs block i of the first cloud (its points 1024·i … 1024·i + 1023) with block j of
  the second (its points 512·j … 512·j + 511). With real coordinates the body's table at that point is the
  expanded squared distance between the two blocks' points, so its row minima are, for each point of block i,
  the least squared distance to a point of block j. The accumulator starts afresh at j = 0 and folds each later
  block's row minima into what the point before left; hence after point n it holds, for each point of block i,
  the least squared distance to the first 512·(j + 1) points of the second cloud, and after the last block of a
  row (j = 15) the least squared distance to the whole second cloud.
-/
import proofs.«158403_j85237920956691_2_alg».proof.Proof.KI.AccDef
import proofs.«158403_j85237920956691_2_alg».proof.Proof.PayMin
import proofs.«158403_j85237920956691_2_alg».proof.Proof.PayDist
import proofs.«158403_j85237920956691_2_alg».proof.Proof.Spec
import proofs.«158403_j85237920956691_2_alg».proof.Proof.LibMinLaws

noncomputable section

namespace Cert.KernelIdeal.AccMath

open Idealize.ShloMosaic Idealize.ShloMosaic.ValueIdx
open Cert.KernelIdeal Cert.KernelIdeal.Gen Cert.KernelIdeal.Hand

section

variable (x y : FVec Ideal Cert.Spec.SIn .f32)
  (hx : ∀ i, ∃ a : ℝ, x i = (a : EReal)) (hy : ∀ i, ∃ a : ℝ, y i = (a : EReal))
  (X : ℕ → Vec Ideal S4x3x1024 .f32) (Y : ℕ → Vec Ideal S4x3x512 .f32)
  (hX : ∀ (n : ℕ) (hn : n < 128) (b : Fin 4) (k : Fin 3) (r : Fin 1024),
    X n (ix3 b k r) = x (ix3 b k ⟨1024 * (n / 16) + r.val, by have := r.isLt; omega⟩))
  (hY : ∀ (n : ℕ) (_ : n < 128) (b : Fin 4) (k : Fin 3) (l : Fin 512),
    Y n (ix3 b k l) = y (ix3 b k ⟨512 * (n % 16) + l.val, by have := l.isLt; omega⟩))

include hx hX in
/-- The first cloud's block at a grid point has real entries. -/
theorem X_real (n : ℕ) (hn : n < 128) (i : S4x3x1024.Idx) : ∃ a : ℝ, X n i = (a : EReal) := by
  obtain ⟨b, k, r, rfl⟩ : ∃ (b : Fin 4) (k : Fin 3) (r : Fin 1024), i = ix3 b k r := ⟨i 0, i 1, i 2, eq_ix3 i⟩
  rw [hX n hn]
  exact hx _

include hy hY in
/-- The second cloud's block at a grid point has real entries. -/
theorem Y_real (n : ℕ) (hn : n < 128) (i : S4x3x512.Idx) : ∃ a : ℝ, Y n i = (a : EReal) := by
  obtain ⟨b, k, l, rfl⟩ : ∃ (b : Fin 4) (k : Fin 3) (l : Fin 512), i = ix3 b k l := ⟨i 0, i 1, i 2, eq_ix3 i⟩
  rw [hY n hn]
  exact hy _

include hx hy hX hY in
/-- The body's table at grid point n, entry (b, r, l): the squared distance between point 1024·(n div 16) + r of
    the first cloud and point 512·(n mod 16) + l of the second. -/
theorem tile_apply (n : ℕ) (hn : n < 128) (b : Fin 4) (r : Fin 1024) (l : Fin 512) :
    k0_pay4 (F := Ideal) (X n) (Y n) (ix3 b r l)
      = Cert.Spec.d2 x y b ⟨1024 * (n / 16) + r.val, by have := r.isLt; omega⟩
          ⟨512 * (n % 16) + l.val, by have := l.isLt; omega⟩ :=
  (Cert.PayDist.pay4_apply (X n) (Y n) (X_real x hx X hX n hn) (Y_real y hy Y hY n hn) b r l).trans
    (congrArg₂ Cert.Spec.d2p (funext fun k => hX n hn b k r) (funext fun k => hY n hn b k l))

include hx hy hX hY in
/-- The row minima of the table at grid point n: for each point of the first cloud's block, the least squared
    distance to a point of the second cloud's block. -/
theorem tile_rows (n : ℕ) (hn : n < 128) (b : Fin 4) (r : Fin 1024) :
    k0_pay5 (F := Ideal) (X n) (Y n) (ix2 b r)
      = ⨅ l : Fin 512, Cert.Spec.d2 x y b ⟨1024 * (n / 16) + r.val, by have := r.isLt; omega⟩
          ⟨512 * (n % 16) + l.val, by have := l.isLt; omega⟩ :=
  (Cert.PayMin.pay5_apply (X n) (Y n) b r).trans (iInf_congr fun l => tile_apply x y hx hy X Y hX hY n hn b r l)

/-- The least of a family over the first 512·(j + 1) positions is the smaller of the least over the first 512·j
    positions and the least over block j. -/
theorem prefix_step (g : Fin 8192 → EReal) (j : ℕ) (hj : j < 16) :
    (⨅ m : Fin 8192, if m.val < 512 * (j + 1) then g m else ⊤)
      = min (⨅ m : Fin 8192, if m.val < 512 * j then g m else ⊤)
          (⨅ l : Fin 512, g ⟨512 * j + l.val, by have := l.isLt; omega⟩) :=
  Cert.MinLaws.iInf_prefix_succ 512 j (by omega) g

include hx hy hX hY in
/-- The accumulator after grid point n, at (b, r): the least squared distance from point 1024·(n div 16) + r of
    the first cloud to the first 512·(n mod 16 + 1) points of the second. -/
theorem acc_apply (n : ℕ) (hn : n < 128) (b : Fin 4) (r : Fin 1024) :
    accOf (F := Ideal) X Y n (ix2 b r)
      = ⨅ m : Fin 8192, if m.val < 512 * (n % 16 + 1)
          then Cert.Spec.d2 x y b ⟨1024 * (n / 16) + r.val, by have := r.isLt; omega⟩ m else ⊤ := by
  induction n with
  | zero =>
    rw [accOf_start X Y 0 rfl, Cert.PayMin.pay1_eq, tile_rows x y hx hy X Y hX hY 0 hn b r,
      prefix_step _ (0 % 16) (by omega)]
    rw [show (⨅ m : Fin 8192, if m.val < 512 * (0 % 16)
          then Cert.Spec.d2 x y b ⟨1024 * (0 / 16) + r.val, by have := r.isLt; omega⟩ m else ⊤) = ⊤ from
        iInf_eq_top.mpr fun m => if_neg (by omega), min_top_left]
  | succ k ih =>
    by_cases h : (k + 1) % 16 = 0
    · rw [accOf_start X Y (k + 1) h, Cert.PayMin.pay1_eq, tile_rows x y hx hy X Y hX hY (k + 1) hn b r,
        prefix_step _ ((k + 1) % 16) (by omega)]
      rw [show (⨅ m : Fin 8192, if m.val < 512 * ((k + 1) % 16)
            then Cert.Spec.d2 x y b ⟨1024 * ((k + 1) / 16) + r.val, by have := r.isLt; omega⟩ m else ⊤) = ⊤ from
          iInf_eq_top.mpr fun m => if_neg (by omega), min_top_left]
    · rw [accOf_step X Y (k + 1) h, Cert.PayMin.pay2_apply, tile_rows x y hx hy X Y hX hY (k + 1) hn b r,
        prefix_step _ ((k + 1) % 16) (by omega)]
      refine congrArg₂ min ?_ rfl
      show accOf (F := Ideal) X Y k (ix2 b r) = _
      rw [ih (by omega)]
      have e1 : k % 16 + 1 = (k + 1) % 16 := by omega
      have e2 : k / 16 = (k + 1) / 16 := by omega
      refine iInf_congr fun m => ?_
      rw [e1]
      exact congrArg (fun q => if m.val < 512 * ((k + 1) % 16) then Cert.Spec.d2 x y b q m else ⊤)
        (Fin.ext (by show 1024 * (k / 16) + r.val = 1024 * ((k + 1) / 16) + r.val; rw [e2]))

include hx hy hX hY in
/-- After the last block of a row the accumulator holds, for each point of the first cloud's block, its least
    squared distance to the whole second cloud. -/
theorem acc_last (n : ℕ) (hn : n < 128) (hj : n % 16 = 15) (b : Fin 4) (r : Fin 1024) :
    accOf (F := Ideal) X Y n (ix2 b r)
      = Cert.Spec.distX x y (ix2 b ⟨1024 * (n / 16) + r.val, by have := r.isLt; omega⟩) := by
  rw [acc_apply x y hx hy X Y hX hY n hn b r]
  exact Cert.MinLaws.iInf_prefix_all (512 * (n % 16 + 1)) (by omega) _

end

end Cert.KernelIdeal.AccMath

end
-- ==== Proof.KI.ColMath.lean ====
/-
  The column minima the kernel writes out at each grid point, in closed form.

  At grid point n = 16·i + j, with real coordinates, the body's table is the expanded squared distance between
  the points of block i of the first cloud and the points of block j of the second. Its minimum along the rows,
  stored under a leading axis of length one, is therefore, for each point of block j of the second cloud, the
  least squared distance to a point of block i of the first.
-/
import proofs.«158403_j85237920956691_2_alg».proof.Proof.KI.AccMath

noncomputable section

namespace Cert.KernelIdeal.ColMath

open Idealize.ShloMosaic Idealize.ShloMosaic.ValueIdx
open Cert.KernelIdeal Cert.KernelIdeal.Gen

/-- The column minima written at grid point n, at (0, b, l): the least squared distance from point
    512·(n mod 16) + l of the second cloud to the 1024 points of block n div 16 of the first. -/
theorem col_apply (x y : FVec Ideal Cert.Spec.SIn .f32)
    (hx : ∀ i, ∃ a : ℝ, x i = (a : EReal)) (hy : ∀ i, ∃ a : ℝ, y i = (a : EReal))
    (X : ℕ → Vec Ideal S4x3x1024 .f32) (Y : ℕ → Vec Ideal S4x3x512 .f32)
    (hX : ∀ (n : ℕ) (hn : n < 128) (b : Fin 4) (k : Fin 3) (r : Fin 1024),
      X n (ix3 b k r) = x (ix3 b k ⟨1024 * (n / 16) + r.val, by have := r.isLt; omega⟩))
    (hY : ∀ (n : ℕ) (_ : n < 128) (b : Fin 4) (k : Fin 3) (l : Fin 512),
      Y n (ix3 b k l) = y (ix3 b k ⟨512 * (n % 16) + l.val, by have := l.isLt; omega⟩))
    (n : ℕ) (hn : n < 128) (b : Fin 4) (l : Fin 512) :
    k0_pay3 (F := Ideal) (k0_pay6 (F := Ideal) (X n) (Y n)) (ix3 (0 : Fin 1) b l)
      = ⨅ r : Fin 1024, Cert.Spec.d2 x y b ⟨1024 * (n / 16) + r.val, by have := r.isLt; omega⟩
          ⟨512 * (n % 16) + l.val, by have := l.isLt; omega⟩ :=
  (Cert.PayMin.pay3_apply _ b l).trans
    ((Cert.PayMin.pay6_apply (X n) (Y n) b l).trans
      (iInf_congr fun r => Cert.KernelIdeal.AccMath.tile_apply x y hx hy X Y hX hY n hn b r l))

end Cert.KernelIdeal.ColMath

end
-- ==== Proof.HostMin.lean ====
/-
  A minimum taken along one axis of a three-dimensional array of extended reals, starting from +∞, read at an
  index of the result: it is the infimum of the entries along that axis.

  The host's reduction over one axis with a commutative, associative body is the fold of the body, from the
  initial value, over the coordinates of that axis; with `min` as the body and `⊤` as the initial value the fold
  is the infimum. Three instances are stated, one per position of the reduced axis.
-/
import Idealize.ShloMosaic.PureOps.Reduce
import Idealize.ShloMosaic.PureOps.Ideal.Laws
import Idealize.ShloMosaic.Lib.ValueIdx
import proofs.«158403_j85237920956691_2_alg».proof.Proof.LibMinLaws
import proofs.«158403_j85237920956691_2_alg».proof.Proof.LibFloatWords

noncomputable section

namespace Cert.HostMin

open Idealize.ShloMosaic Idealize.ShloMosaic.ValueIdx

/-- The minimum over the last axis: entry (b, n) of the result is the infimum over m of entry (b, n, m). -/
theorem min_last (z : FVec Ideal ⟨3, ![4, 8192, 8192]⟩ .f32)
    (h : (⟨3, ![4, 8192, 8192]⟩ : Shape).ReducesTo [2] ⟨2, ![4, 8192]⟩) (h0 : 0 < (⟨0, ![]⟩ : Shape).numel)
    (i : (⟨2, ![4, 8192]⟩ : Shape).Idx) :
    Host.reduce (FloatOps.minimumf (F := Ideal) (φ := .f32)) z
        (constant (F := Ideal) ⟨0, ![]⟩ .f32 0x7F800000#32) h h0 i
      = ⨅ m : Fin 8192, z (ix3 (i 0) (i 1) m) := by
  have hr : (⟨3, ![4, 8192, 8192]⟩ : Shape).Reduces [2] ⟨2, ![4, 8192]⟩ := by decide
  rw [Host.reduce_eq_fold_single _ z _ h hr h0 i]
  refine (?_ : _ = ⨅ m : Fin 8192, z (hr.lift i m)).trans (iInf_congr fun m => ?_)
  · show Finset.fold min (Ideal.ofBits .f32 0x7F800000#32) (fun m : Fin 8192 => z (hr.lift i m)) Finset.univ = _
    rw [Cert.FloatWords.ofBits_inf]
    exact Cert.MinLaws.fold_min_top _
  exact congrArg z (funext fun a => Fin.ext (by
    match a with
    | ⟨0, _⟩ => rfl
    | ⟨1, _⟩ => rfl
    | ⟨2, _⟩ => rfl))

/-- The minimum over the middle axis: entry (b, m) of the result is the infimum over n of entry (b, n, m). -/
theorem min_mid (z : FVec Ideal ⟨3, ![4, 8192, 8192]⟩ .f32)
    (h : (⟨3, ![4, 8192, 8192]⟩ : Shape).ReducesTo [1] ⟨2, ![4, 8192]⟩) (h0 : 0 < (⟨0, ![]⟩ : Shape).numel)
    (i : (⟨2, ![4, 8192]⟩ : Shape).Idx) :
    Host.reduce (FloatOps.minimumf (F := Ideal) (φ := .f32)) z
        (constant (F := Ideal) ⟨0, ![]⟩ .f32 0x7F800000#32) h h0 i
      = ⨅ n : Fin 8192, z (ix3 (i 0) n (i 1)) := by
  have hr : (⟨3, ![4, 8192, 8192]⟩ : Shape).Reduces [1] ⟨2, ![4, 8192]⟩ := by decide
  rw [Host.reduce_eq_fold_single _ z _ h hr h0 i]
  refine (?_ : _ = ⨅ n : Fin 8192, z (hr.lift i n)).trans (iInf_congr fun n => ?_)
  · show Finset.fold min (Ideal.ofBits .f32 0x7F800000#32) (fun n : Fin 8192 => z (hr.lift i n)) Finset.univ = _
    rw [Cert.FloatWords.ofBits_inf]
    exact Cert.MinLaws.fold_min_top _
  exact congrArg z (funext fun a => Fin.ext (by
    match a with
    | ⟨0, _⟩ => rfl
    | ⟨1, _⟩ => rfl
    | ⟨2, _⟩ => rfl))

/-- The minimum over the first axis of eight slabs: entry (b, n) of the result is the infimum over t of
    entry (t, b, n). -/
theorem min_first (z : FVec Ideal ⟨3, ![8, 4, 8192]⟩ .f32)
    (h : (⟨3, ![8, 4, 8192]⟩ : Shape).ReducesTo [0] ⟨2, ![4, 8192]⟩) (h0 : 0 < (⟨0, ![]⟩ : Shape).numel)
    (i : (⟨2, ![4, 8192]⟩ : Shape).Idx) :
    Host.reduce (FloatOps.minimumf (F := Ideal) (φ := .f32)) z
        (constant (F := Ideal) ⟨0, ![]⟩ .f32 0x7F800000#32) h h0 i
      = ⨅ t : Fin 8, z (ix3 t (i 0) (i 1)) := by
  have hr : (⟨3, ![8, 4, 8192]⟩ : Shape).Reduces [0] ⟨2, ![4, 8192]⟩ := by decide
  rw [Host.reduce_eq_fold_single _ z _ h hr h0 i]
  refine (?_ : _ = ⨅ t : Fin 8, z (hr.lift i t)).trans (iInf_congr fun t => ?_)
  · show Finset.fold min (Ideal.ofBits .f32 0x7F800000#32) (fun t : Fin 8 => z (hr.lift i t)) Finset.univ = _
    rw [Cert.FloatWords.ofBits_inf]
    exact Cert.MinLaws.fold_min_top _
  exact congrArg z (funext fun a => Fin.ext (by
    match a with
    | ⟨0, _⟩ => rfl
    | ⟨1, _⟩ => rfl
    | ⟨2, _⟩ => rfl))

end Cert.HostMin

end
-- ==== Proof.KI.Tail.lean ====
/-
  The host operations after the kernel's region, read off the contents the region leaves.

  After the region the program takes, of the array of partial column minima (eight slabs, one per block of the
  first cloud), the minimum over the slabs, started from +∞; then the sum of all entries of the array of row
  minima, from zero, divided by 32768; the same of the column minima; and adds the two quotients. The region
  leaves its two output arrays at the contents the proof data assign them after the last grid point, and the
  operations after it read exactly those. So the final value is the mean of the row minima plus the mean of
  the entrywise infimum, over the eight slabs, of the partial column minima.
-/
import proofs.«158403_j85237920956691_2_alg».proof.Proof.Gen.KernelIdeal.Frame
import proofs.«158403_j85237920956691_2_alg».proof.Proof.Spec
import proofs.«158403_j85237920956691_2_alg».proof.Proof.HostMin

noncomputable section

namespace Cert.KernelIdeal.Hand

open Idealize.ShloMosaic Idealize.ShloMosaic.TcCoe Idealize.ShloMosaic.ValueIdx Idealize.SL.Sem
open Cert.KernelIdeal Cert.KernelIdeal.Gen

/-- The value of the final buffer after the operations that follow the region: the mean of the first output
    array plus the mean of the infimum over the eight slabs of the second, both arrays as the region leaves
    them. -/
theorem tail_eq (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (Gen.V0 m) [hostOps1] c main_v6
      = Cert.Spec.tail Facts₀.reducesTo_S4x8192_S_d0_1 Facts₀.h_S_ ((dats 0 c).arrAt 2 cfg0.N)
          (fun i => ⨅ t : Fin 8, (dats 0 c).arrAt 3 cfg0.N (ix3 t (i 0) (i 1))) := by
  unfold Pipeline.afterTail₀
  show StableHlo.after hostOps1 _ (Proc.devRef .tc main_v6) = _
  after_results
  have e2 : Pipeline.withArrays (cfgs 0).spec c (V0 m c) (fun w => (dats 0 c).arrAt w (cfgs 0).N)
      (Proc.devRef .tc main_v0_0) = (dats 0 c).arrAt 2 cfg0.N :=
    Pipeline.withArrays_arr spec0 launch0.win.arr_inj c _ _ 2
  have e3 : Pipeline.withArrays (cfgs 0).spec c (V0 m c) (fun w => (dats 0 c).arrAt w (cfgs 0).N)
      (Proc.devRef .tc main_v0_1) = (dats 0 c).arrAt 3 cfg0.N :=
    Pipeline.withArrays_arr spec0 launch0.win.arr_inj c _ _ 3
  rw [e2, e3]
  have e : ∀ A : FVec Ideal ⟨3, ![8, 4, 8192]⟩ .f32,
      Host.reduce (FloatOps.minimumf (F := Ideal) (φ := .f32)) A
          (constant (F := Ideal) S_ .f32 0x7F800000#32) reducesTo_S8x4x8192_S4x8192_d0 h_S_
        = (fun i => ⨅ t : Fin 8, A (ix3 t (i 0) (i 1)) : FVec Ideal ⟨2, ![4, 8192]⟩ .f32) :=
    fun A => funext fun i => Cert.HostMin.min_first A _ _ i
  exact congrArg (fun z => Cert.Spec.tail Facts₀.reducesTo_S4x8192_S_d0_1 Facts₀.h_S_ ((dats 0 c).arrAt 2 cfg0.N) z)
    (e ((dats 0 c).arrAt 3 cfg0.N))

end Cert.KernelIdeal.Hand

end
-- ==== Proof.TileMerge.lean ====
/-
  An infimum over 8192 positions, taken tile by tile.

  The positions 0 … 8191 are the eight tiles of 1024 consecutive positions: position n is place n mod 1024 of
  tile n div 1024. So the infimum of a family over all positions is the infimum, over the tiles, of the infimum
  over each tile.
-/
import Mathlib.Data.EReal.Basic
import Mathlib.Order.CompleteLattice.Basic

noncomputable section

namespace Cert.TileMerge

/-- The infimum over eight tiles of the infima over each tile's 1024 places is the infimum over all 8192
    positions. -/
theorem iInf_tiles (f : Fin 8192 → EReal) :
    (⨅ i : Fin 8, ⨅ r : Fin 1024, f ⟨1024 * i.val + r.val, by have := i.isLt; have := r.isLt; omega⟩)
      = ⨅ n : Fin 8192, f n := by
  apply le_antisymm
  · refine le_iInf fun n => ?_
    refine iInf_le_of_le ⟨n.val / 1024, by have := n.isLt; omega⟩
      (iInf_le_of_le ⟨n.val % 1024, Nat.mod_lt _ (by norm_num)⟩ (le_of_eq (congrArg f (Fin.ext ?_))))
    show 1024 * (n.val / 1024) + n.val % 1024 = n.val
    exact Nat.div_add_mod _ _
  · exact le_iInf fun i => le_iInf fun r => iInf_le f _

end Cert.TileMerge

end
-- ==== Proof.Finite.lean ====
/-
  From the precondition to real entries.

  The precondition says, of each input array, that every entry's absolute value compares below +∞, the
  comparisons of one array joined by `and` over all its entries, and the two arrays' answers joined by `and`.
  An `and` that is 1 had both operands 1; a reduction by `and` over every axis that is 1 met only 1s. An
  extended real v with max v (-v) < ⊤ is neither ⊤ nor ⊥ (at ⊥ the maximum is -⊥ = ⊤), so it is a real number.
-/
import proofs.«158403_j85237920956691_2_alg».proof.Pre_finite_inputs
import proofs.«158403_j85237920956691_2_alg».proof.Proof.LibFloatWords
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The scalar shape has one index. -/
instance : Subsingleton (⟨0, ![]⟩ : Shape).Idx := ⟨fun _ _ => funext fun d => d.elim0⟩

/-- An extended real whose absolute value compares below +∞ is a real number. -/
theorem real_of_abs_lt_top (v : EReal) (h : Ideal.cmp .olt (max v (-v)) ⊤ = 1#1) : ∃ r : ℝ, v = (r : EReal) := by
  induction v using EReal.rec with
  | bot => exact absurd h (by simp [Ideal.cmp])
  | top => exact absurd h (by simp [Ideal.cmp])
  | coe r => exact ⟨r, rfl⟩

/-- Under the precondition every entry of both input arrays is a real number. -/
theorem real_of_pre [Cert.Pre_finite_inputs.Facts] (x y : FVec Ideal ⟨3, ![4, 3, 8192]⟩ .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    refine real_of_abs_lt_top (x i) ?_
    rw [← Cert.FloatWords.ofBits_inf]
    exact e
  · have e := Host.reduce_andi_all _ _ _ _ _ hy i
    refine real_of_abs_lt_top (y i) ?_
    rw [← Cert.FloatWords.ofBits_inf]
    exact e

end Cert.Finite

end
-- ==== Proof.KI.Value.lean ====
/-
  What the idealized kernel computes: the mean, over the first cloud, of each point's least squared distance to the
  second cloud, plus the same with the clouds exchanged.

  The first output array ends, at (b, n), at the running row minimum after the last tile of the second cloud, which
  is the infimum over all 8192 points of the second cloud; the second output array ends, at (i, b, m), at the
  infimum over the i-th tile of 1024 points of the first cloud, and the host's minimum over the eight tiles is the
  infimum over the whole first cloud. The squared distances agree with the expanded form |p|² + |q|² − 2 p·q because
  every input is a real number (the precondition).
-/
import proofs.«158403_j85237920956691_2_alg».proof.Defs
import proofs.«158403_j85237920956691_2_alg».proof.Proof.KI.Data
import proofs.«158403_j85237920956691_2_alg».proof.Proof.KI.BlockReads
import proofs.«158403_j85237920956691_2_alg».proof.Proof.KI.Arrays
import proofs.«158403_j85237920956691_2_alg».proof.Proof.KI.AccMath
import proofs.«158403_j85237920956691_2_alg».proof.Proof.KI.ColMath
import proofs.«158403_j85237920956691_2_alg».proof.Proof.KI.Tail
import proofs.«158403_j85237920956691_2_alg».proof.Proof.TileMerge
import proofs.«158403_j85237920956691_2_alg».proof.Proof.Finite
import proofs.«158403_j85237920956691_2_alg».proof.Proof.Spec

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The first cloud, as the program finds it. -/
abbrev xin (c : Dev nD) : FVec Ideal Cert.Spec.SIn .f32 := m ((c.tc : Thread nD τ).loc main_arg0)
/-- The second cloud. -/
abbrev yin (c : Dev nD) : FVec Ideal Cert.Spec.SIn .f32 := m ((c.tc : Thread nD τ).loc main_arg1)

/-- The block of the first cloud at point `n` holds the points 1024·(n / 16) + r. -/
theorem Xb_apply (c : Dev nD) (n : ℕ) (hn : n < 128) (b : Fin 4) (k : Fin 3) (r : Fin 1024) :
    Xb m c n (ix3 b k r) = xin m c (ix3 b k ⟨1024 * (n / 16) + r.val, by have := r.isLt; omega⟩) := by
  have hN : n < cfg0.N := by rw [show cfg0.N = 128 from N_0]; exact hn
  rw [show Xb m c n = iblk m c 0 ⟨n, hN⟩ from Xb_eq m c ⟨n, hN⟩]
  exact iblk0_apply m c ⟨n, hN⟩ b k r

/-- The block of the second cloud at point `n` holds the points 512·(n % 16) + l. -/
theorem Yb_apply (c : Dev nD) (n : ℕ) (hn : n < 128) (b : Fin 4) (k : Fin 3) (l : Fin 512) :
    Yb m c n (ix3 b k l) = yin m c (ix3 b k ⟨512 * (n % 16) + l.val, by have := l.isLt; omega⟩) := by
  have hN : n < cfg0.N := by rw [show cfg0.N = 128 from N_0]; exact hn
  rw [show Yb m c n = iblk m c 1 ⟨n, hN⟩ from Yb_eq m c ⟨n, hN⟩]
  exact iblk1_apply m c ⟨n, hN⟩ b k l

section
variable (c : Dev nD) (hx : ∀ i, ∃ a : ℝ, xin m c i = (a : EReal)) (hy : ∀ i, ∃ a : ℝ, yin m c i = (a : EReal))
include hx hy

/-- The first output array after the grid: each point's least squared distance to the second cloud. -/
theorem rows_final : (dats m 0 c).arrAt 2 cfg0.N = Cert.Spec.distX (xin m c) (yin m c) := by
  refine final2 c (dats m 0 c) (Cert.Spec.distX (xin m c) (yin m c)) (fun t ht b r => ?_)
  rw [after_2]
  have hN : t.val < 128 := lt_of_lt_of_eq t.isLt (show cfg0.N = 128 from N_0)
  exact Cert.KernelIdeal.AccMath.acc_last (xin m c) (yin m c) hx hy (Xb m c) (Yb m c) (Xb_apply m c) (Yb_apply m c) t.val hN ht b r

/-- The partial column minima: at (i, b, m) the least squared distance from point m of the second cloud to the
    i-th tile of the first. -/
def colsG : FVec Ideal S8x4x8192 .f32 :=
  fun j => ⨅ r : Fin 1024, Cert.Spec.d2 (xin m c) (yin m c) (j 1) ⟨1024 * (j 0).val + r.val, by have h0 : (j 0).val < 8 := (j 0).isLt; have := r.isLt; omega⟩ (j 2)

omit hx hy in
theorem colsG_apply (i : Fin 8) (b : Fin 4) (mm : Fin 8192) :
    colsG m c (ix3 i b mm) = ⨅ r : Fin 1024, Cert.Spec.d2 (xin m c) (yin m c) b ⟨1024 * i.val + r.val, by have := i.isLt; have := r.isLt; omega⟩ mm := rfl

/-- The second output array after the grid. -/
theorem cols_final : (dats m 0 c).arrAt 3 cfg0.N = colsG m c := by
  refine final3 c (dats m 0 c) (colsG m c) (fun t b l => ?_)
  rw [after_3]
  have hN : t.val < 128 := lt_of_lt_of_eq t.isLt (show cfg0.N = 128 from N_0)
  unfold colmin
  rw [← Xb_eq m c t, ← Yb_eq m c t]
  exact Cert.KernelIdeal.ColMath.col_apply (xin m c) (yin m c) hx hy (Xb m c) (Yb m c) (Xb_apply m c) (Yb_apply m c) t.val hN b l

/-- The result the host operations after the region compute from the two arrays. -/
theorem result_eq :
    Pipeline.afterTail₀ cfgs (dats m) 0 (V0 m) [hostOps1] c main_v6
      = Cert.Spec.tail Facts₀.reducesTo_S4x8192_S_d0_1 Facts₀.h_S_ (Cert.Spec.distX (xin m c) (yin m c)) (Cert.Spec.distY (xin m c) (yin m c)) := by
  rw [tail_eq m (dats m) c, rows_final m c hx hy, cols_final m c hx hy]
  congr 1
  funext i
  obtain ⟨b, mm, rfl⟩ : ∃ (b : Fin 4) (mm : Fin 8192), i = ix2 b mm := ⟨i 0, i 1, eq_ix2 i⟩
  simp only [colsG_apply]
  exact Cert.TileMerge.iInf_tiles (fun n => Cert.Spec.d2 (xin m c) (yin m c) b n mm)

end

/-- The idealized kernel's run with its result named by the specification, under the precondition. -/
theorem run [hPre : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v6)
        = Cert.Spec.tail Facts₀.reducesTo_S4x8192_S_d0_1 Facts₀.h_S_ (Cert.Spec.distX (xin m c) (yin m c)) (Cert.Spec.distY (xin m c) (yin m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  obtain ⟨hx, hy⟩ := Cert.Finite.real_of_pre (xin m c) (yin m c) (hpre c)
  refine ⟨?_, ?_, ?_⟩
  · rw [← result_eq m c hx hy]
    exact (h c).2 main_v6 (Pipeline.mem_restRefs_of main_v6 rfl (by decide))
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Hand

end
-- ==== Proof.RefDist.lean ====
/-
  The reference's table of squared distances, read at an index.

  The reference transposes both clouds to point-major order, sums the squares of each point's three
  coordinates (starting each sum from zero), takes the products p·q of every pair of points by a contraction
  over the coordinate axis, broadcasts the two arrays of squared norms along the other cloud's axis, and forms
  (|p|² + |q|²) - 2·(p·q). Read at entry (b, n, m) this is, term for term, the expanded squared distance
  between point n of the first cloud and point m of the second in batch b: the transposition composed with
  each stage's index map sends (b, n, m) and a coordinate k to (b, k, n) in the first cloud and to (b, k, m)
  in the second, a sum started from zero is the sum, and the word of the factor denotes 2.
-/
import proofs.«158403_j85237920956691_2_alg».proof.Proof.Gen.ReferenceIdeal.Read
import proofs.«158403_j85237920956691_2_alg».proof.Proof.Spec
import proofs.«158403_j85237920956691_2_alg».proof.Proof.LibFloatWords

noncomputable section

namespace Cert.RefDist

open Cert.ReferenceIdeal Cert.ReferenceIdeal.Read Idealize.ShloMosaic Idealize.ShloMosaic.ValueIdx
open scoped BigOperators

/-- Coordinate k of point n of the first cloud, reached through the first broadcast chain. -/
theorem idx_norm_x (b : Fin 4) (n m : Fin 8192) (k : Fin 3) :
    idx_main_v0 (idx_main_v3 (idx_main_v7 (idx_main_v9 (ix3 b n m))) k) = ix3 b k n := by
  funext a
  match a with
  | ⟨0, _⟩ => rfl
  | ⟨1, _⟩ => rfl
  | ⟨2, _⟩ => rfl

/-- Coordinate k of point m of the second cloud, reached through the second broadcast chain. -/
theorem idx_norm_y (b : Fin 4) (n m : Fin 8192) (k : Fin 3) :
    idx_main_v1 (idx_main_v5 (idx_main_v8 (idx_main_v10 (ix3 b n m))) k) = ix3 b k m := by
  funext a
  match a with
  | ⟨0, _⟩ => rfl
  | ⟨1, _⟩ => rfl
  | ⟨2, _⟩ => rfl

/-- The contraction's left factor at (b, n, m), k is coordinate k of point n of the first cloud. -/
theorem idx_dot_x (b : Fin 4) (n m : Fin 8192) (k : Fin 3) :
    idx_main_v0 (lidx_main_v6 (ix3 b n m) k) = ix3 b k n := by
  funext a
  match a with
  | ⟨0, _⟩ => rfl
  | ⟨1, _⟩ => rfl
  | ⟨2, _⟩ => rfl

/-- The contraction's right factor at (b, n, m), k is coordinate k of point m of the second cloud. -/
theorem idx_dot_y (b : Fin 4) (n m : Fin 8192) (k : Fin 3) :
    idx_main_v1 (ridx_main_v6 (ix3 b n m) k) = ix3 b k m := by
  funext a
  match a with
  | ⟨0, _⟩ => rfl
  | ⟨1, _⟩ => rfl
  | ⟨2, _⟩ => rfl

/-- Entry (b, n, m) of the reference's table is the expanded squared distance between point n of the first
    cloud and point m of the second, in batch b. -/
theorem d_apply (x y : FVec Ideal S4x3x8192 .f32) (b : Fin 4) (n m : Fin 8192) :
    val_main_v14 (F := Ideal) x y (ix3 b n m) = Cert.Spec.d2 x y b n m := by
  rw [val_main_v14_apply, val_main_v11_apply, val_main_v13_apply, val_main_v9_apply, val_main_v7_apply,
    val_main_v3_apply, val_main_v10_apply, val_main_v8_apply, val_main_v5_apply, val_main_v12_apply,
    val_main_cst_1_apply, val_main_v6_apply, val_main_cst_apply, val_main_cst_0_apply]
  simp only [val_main_v2_apply, val_main_v4_apply, val_main_v0_apply, val_main_v1_apply, idx_norm_x, idx_norm_y,
    idx_dot_x, idx_dot_y, Ideal.subf_def, Ideal.addf_def, Ideal.mulf_def, Ideal.ofBits_def, Ideal.ofBits_zero_f32,
    zero_add, Cert.FloatWords.ofBits_two]
  rfl

end Cert.RefDist

end
-- ==== Proof.RefSide.lean ====
/-
  What the reference program computes, named by the specification.

  The reference's two minimum reductions of its table of squared distances — over the last axis and over the
  middle axis, each started from +∞ — are, entry by entry, infima of that table along the axis; the table's
  entry (b, n, m) is the expanded squared distance between point n of the first cloud and point m of the
  second. So the first reduction is `distX` and the second `distY`. What the reference does afterwards (sum
  all entries of each from zero, divide by 32768, add) is the specification's `tail` applied to these two
  arrays, operation for operation. The run of the reference program is then restated with its result written
  as that term of the argument arrays.
-/
import proofs.«158403_j85237920956691_2_alg».proof.Proof.Gen.ReferenceIdeal.Read
import proofs.«158403_j85237920956691_2_alg».proof.Proof.Spec
import proofs.«158403_j85237920956691_2_alg».proof.Proof.HostMin
import proofs.«158403_j85237920956691_2_alg».proof.Proof.RefDist

noncomputable section

namespace Cert.RefSide

open Cert.ReferenceIdeal Cert.ReferenceIdeal.Read Idealize.ShloMosaic Idealize.ShloMosaic.ValueIdx
  Idealize.ShloMosaic.TcCoe Idealize.SL.Sem

/-- The minimum over the second cloud's points: for each point of the first cloud, its least squared distance
    to the second cloud. -/
theorem distX_eq (x y : FVec Ideal S4x3x8192 .f32) :
    val_main_v15 (F := Ideal) x y = Cert.Spec.distX x y := by
  funext i
  show Host.reduce FloatOps.minimumf (val_main_v14 (F := Ideal) x y) (constant (F := Ideal) S_ .f32 0x7F800000#32)
      Cert.ReferenceIdeal.Gen.reducesTo_S4x8192x8192_S4x8192_d2 Cert.ReferenceIdeal.Gen.h_S_ i
    = ⨅ m : Fin 8192, Cert.Spec.d2 x y (i 0) (i 1) m
  exact (Cert.HostMin.min_last (val_main_v14 (F := Ideal) x y) _ _ i).trans
    (iInf_congr fun m => Cert.RefDist.d_apply x y (i 0) (i 1) m)

/-- The minimum over the first cloud's points: for each point of the second cloud, its least squared distance
    to the first cloud. -/
theorem distY_eq (x y : FVec Ideal S4x3x8192 .f32) :
    val_main_v16 (F := Ideal) x y = Cert.Spec.distY x y := by
  funext i
  show Host.reduce FloatOps.minimumf (val_main_v14 (F := Ideal) x y) (constant (F := Ideal) S_ .f32 0x7F800000#32)
      Cert.ReferenceIdeal.Gen.reducesTo_S4x8192x8192_S4x8192_d1 Cert.ReferenceIdeal.Gen.h_S_ i
    = ⨅ n : Fin 8192, Cert.Spec.d2 x y (i 0) n (i 1)
  exact (Cert.HostMin.min_mid (val_main_v14 (F := Ideal) x y) _ _ i).trans
    (iInf_congr fun n => Cert.RefDist.d_apply x y (i 0) n (i 1))

/-- The reference's result is the mean of `distX` plus the mean of `distY`. -/
theorem result_eq (x y : FVec Ideal S4x3x8192 .f32) :
    val_main_v21 (F := Ideal) x y
      = Cert.Spec.tail Cert.ReferenceIdeal.Facts₀.reducesTo_S4x8192_S_d0_1 Cert.ReferenceIdeal.Facts₀.h_S_
          (Cert.Spec.distX x y) (Cert.Spec.distY x y) := by
  rw [← distX_eq, ← distY_eq]
  rfl

/-- Every weakly fair execution of the reference program terminates, without a fault, with its result the
    mean of `distX` plus the mean of `distY` of the argument arrays, and the argument arrays unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v21)
        = Cert.Spec.tail Cert.ReferenceIdeal.Facts₀.reducesTo_S4x8192_S_d0_1 Cert.ReferenceIdeal.Facts₀.h_S_
            (Cert.Spec.distX (m' ((c.tc : Thread nD τ).loc main_arg0)) (m' ((c.tc : Thread nD τ).loc main_arg1)))
            (Cert.Spec.distY (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run (defs (F := Ideal)) _ _).mono
    (fun _ h c => ⟨(h c).1.trans ((val_main_v21_eq (F := Ideal) _ _).trans (result_eq _ _)), (h c).2⟩)
    (Cert.ReferenceIdeal.Value.run (F := Ideal) m' ρ')

end Cert.RefSide

end
-- ==== Proof.lean ====
/-
  The fused minimum-distance kernel against its reference.

  Both programs take two clouds of 8192 points in three coordinates, four batches, and return the mean over the
  first cloud of each point's least squared distance to the second cloud, plus the same with the clouds
  exchanged. The reference builds all 4 × 8192 × 8192 squared distances as |p|² + |q|² − 2 p·q and takes the two
  minima. The kernel walks an 8 × 16 grid of tiles (1024 points of the first cloud against 512 of the second),
  builds each tile as |p|² + |q|² − (2p₀)q₀ − (2p₁)q₁ − (2p₂)q₂, keeps a running row minimum across the 16 tiles of
  a row in a scratch buffer and emits it at the last one, emits each tile's column minima, and lets the host take
  the minimum of those over the 8 tile rows. On real inputs (the precondition) the two expansions of the squared
  distance agree, a minimum taken tile by tile is the minimum, and the two results are the same extended real.

  The three frames: each kernel program's body is run at a symbolic grid point in its three cases (first tile of
  a row, middle, last), which gives the pipeline's body obligation and with it the run of the program; the
  reference is a straight line of host operations. The idealization rewrote nothing, so `preserves` is trivial.
-/
import proofs.«158403_j85237920956691_2_alg».proof.Defs
import proofs.«158403_j85237920956691_2_alg».proof.Proof.Gen.Kernel
import proofs.«158403_j85237920956691_2_alg».proof.Proof.Gen.Kernel.Skeleton
import proofs.«158403_j85237920956691_2_alg».proof.Proof.Gen.Kernel.Launch
import proofs.«158403_j85237920956691_2_alg».proof.Proof.Gen.Kernel.Points
import proofs.«158403_j85237920956691_2_alg».proof.Proof.Gen.Kernel.Frame
import proofs.«158403_j85237920956691_2_alg».proof.Proof.Gen.KernelIdeal
import proofs.«158403_j85237920956691_2_alg».proof.Proof.Gen.KernelIdeal.Skeleton
import proofs.«158403_j85237920956691_2_alg».proof.Proof.Gen.KernelIdeal.Launch
import proofs.«158403_j85237920956691_2_alg».proof.Proof.Gen.KernelIdeal.Points
import proofs.«158403_j85237920956691_2_alg».proof.Proof.Gen.KernelIdeal.Frame
import proofs.«158403_j85237920956691_2_alg».proof.Proof.Gen.ReferenceIdeal
import proofs.«158403_j85237920956691_2_alg».proof.Proof.Gen.ReferenceIdeal.Read
import proofs.«158403_j85237920956691_2_alg».proof.Proof.Gen.Pre_finite_inputs
import proofs.«158403_j85237920956691_2_alg».proof.Proof.KB.Data
import proofs.«158403_j85237920956691_2_alg».proof.Proof.KI.Value
import proofs.«158403_j85237920956691_2_alg».proof.Proof.RefSide
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- Both programs end at the mean of the row minima plus the mean of the column minima of the same squared
    distances of the same arrays. -/
theorem algebraic : Cert.algebraic_KernelIdeal_ReferenceIdeal := by
  intro m ρ m' ρ' hpre hagree
  refine ⟨_, Cert.KernelIdeal.Hand.run m ρ hpre, ?_⟩
  refine (θ_run Cert.ReferenceIdeal.defs _ _).mono (fun _ h c => ⟨?_, (h c).2⟩) (Cert.RefSide.run m' ρ')
  rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
